-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg9 : FVec F S64x32 .f32) (main_arg10 : FVec F S32 .f32) (main_arg11 : FVec F S32x32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  main_v48

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x32 .f32) (main_v13 : IVec S_ 1) (main_v16 : IVec S160x64 1) : IVec S_ 1 :=
  let main_c_5 : IVec S_ 1 := constantI S_ 1 1#1
  let main_v17 : IVec S_ 1 := (fun x v => Host.reduce IntOp.andi x v reducesTo_S160x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x32 .f32) (main_arg1 : FVec F S100000x32 .f32) (main_arg2 : FVec F S800000x32 .f32) (main_arg3 : IVec S800000 32) (main_arg4 : IVec S800000 32) (main_arg5 : FVec F S160x64 .f32) (main_arg6 : FVec F S64 .f32) (main_arg7 : FVec F S64x64 .f32) (main_arg8 : FVec F S64 .f32) (main_arg9 : FVec F S64x32 .f32) (main_arg10 : FVec F S32 .f32) (main_arg11 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S800000x32 .f32 := Host.absf main_arg2
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S160x64 .f32 := Host.absf main_arg5
  let main_cst_4 : FVec F S_ .f32 := constant S_ .f32 0x7F800000#32
  let main_v15 : FVec F S160x64 .f32 := broadcastInDim S160x64 ![] bcast_S_S160x64 main_cst_4
  let main_v16 : IVec S160x64 1 := cmpf .olt main_v14 main_v15
  fn_part1 (F := F) main_arg6 main_arg7 main_arg8 main_arg9 main_arg10 main_arg11 main_v13 main_v16
-- ==== Kernel.lean ====
abbrev S100000x32 : Shape := ⟨2, ![100000, 32]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩
abbrev S800000x1 : Shape := ⟨2, ![800000, 1]⟩
abbrev S800000x128 : Shape := ⟨2, ![800000, 128]⟩
abbrev S128x64 : Shape := ⟨2, ![128, 64]⟩
abbrev S32x64 : Shape := ⟨2, ![32, 64]⟩
abbrev S1x64 : Shape := ⟨2, ![1, 64]⟩
abbrev S1x32 : Shape := ⟨2, ![1, 32]⟩
abbrev S16000x128 : Shape := ⟨2, ![16000, 128]⟩
abbrev S16000x32 : Shape := ⟨2, ![16000, 32]⟩
abbrev S16000x64 : Shape := ⟨2, ![16000, 64]⟩
abbrev S100000x64 : Shape := ⟨2, ![100000, 64]⟩
abbrev S10000x64 : Shape := ⟨2, ![10000, 64]⟩
abbrev S10000x32 : Shape := ⟨2, ![10000, 32]⟩

abbrev nBuf : Space → Nat
  | .hbm => 61
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S800000x32, .f32⟩
  | .hbm, ⟨3, _⟩ => ⟨S800000, .i32⟩
  | .hbm, ⟨4, _⟩ => ⟨S800000, .i32⟩
  | .hbm, ⟨5, _⟩ => ⟨S160x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x32, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x32, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x32, .f32⟩
  | .hbm, ⟨48, _⟩ => ⟨S800000x128, .f32⟩
  | .hbm, ⟨49, _⟩ => ⟨S128x64, .f32⟩
  | .hbm, ⟨50, _⟩ => ⟨S32x64, .f32⟩
  | .hbm, ⟨51, _⟩ => ⟨S1x64, .f32⟩
  | .hbm, ⟨52, _⟩ => ⟨S1x64, .f32⟩
  | .hbm, ⟨53, _⟩ => ⟨S1x32, .f32⟩
  | .hbm, ⟨54, _⟩ => ⟨S800000x32, .f32⟩
  | .hbm, ⟨55, _⟩ => ⟨S_, .f32⟩
  | .hbm, ⟨56, _⟩ => ⟨S100000x32, .f32⟩
  | .hbm, ⟨57, _⟩ => ⟨S800000x1, .i32⟩
  | .hbm, ⟨58, _⟩ => ⟨S100000x32, .f32⟩
  | .hbm, ⟨59, _⟩ => ⟨S100000x64, .f32⟩
  | .hbm, ⟨60, _⟩ => ⟨S100000x32, .f32⟩
  | .local _ .vmem, ⟨0, _⟩ => ⟨S16000x128, .f32⟩
  | .local _ .vmem, ⟨1, _⟩ => ⟨S16000x128, .f32⟩
  | .local _ .vmem, ⟨2, _⟩ => ⟨S16000x32, .f32⟩
  | .local _ .vmem, ⟨3, _⟩ => ⟨S16000x32, .f32⟩
  | .local _ .vmem, ⟨4, _⟩ => ⟨S128x64, .f32⟩
  | .local _ .vmem, ⟨5, _⟩ => ⟨S32x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x32, .f32⟩
  | .local _ .vmem, ⟨10, _⟩ => ⟨S1x32, .f32⟩
  | .local _ .vmem, ⟨11, _⟩ => ⟨S16000x32, .f32⟩
  | .local _ .vmem, ⟨12, _⟩ => ⟨S16000x32, .f32⟩
  | .local _ .vmem, ⟨13, _⟩ => ⟨S10000x64, .f32⟩
  | .local _ .vmem, ⟨14, _⟩ => ⟨S10000x64, .f32⟩
  | .local _ .vmem, ⟨15, _⟩ => ⟨S32x32, .f32⟩
  | .local _ .vmem, ⟨16, _⟩ => ⟨S10000x32, .f32⟩
  | .local _ .vmem, ⟨17, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x32_S800000x32_S800000x128_d1 : Shape.Concatenates [S800000x32, S800000x32, S800000x32, S800000x32] S800000x128 1
  slices_S160x64_S128x64_0_0 : S160x64.Slices ![0, 0] S128x64
  slices_S160x64_S32x64_128_0 : S160x64.Slices ![128, 0] S32x64
  shapeCasts_S64_S1x64 : S64.ShapeCasts S1x64
  shapeCasts_S32_S1x32 : S32.ShapeCasts S1x32
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16000x32_S16000x32_0_0 : ∀ a, (![0, 0] : Fin 2 → Nat) a + S16000x32.size a ≤ S16000x32.size a
  h_S16000x32 : 0 < S16000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  slices_S16000x128_o0_64_S16000x32 : S16000x128.Slices ![0, 64] S16000x32
  slices_S16000x128_o0_96_S16000x32 : S16000x128.Slices ![0, 96] S16000x32
  bcast_S_S100000x32 : S_.BroadcastsInDim S100000x32 (![] : Fin 0 → Fin S100000x32.rank)
  concatenates_S100000x32_S100000x32_S100000x64_d1 : Shape.Concatenates [S100000x32, S100000x32] S100000x64 1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S10000x64_o0_0_S10000x32 : S10000x64.Slices ![0, 0] S10000x32
  slices_S10000x64_o0_32_S10000x32 : S10000x64.Slices ![0, 32] S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  gather_S100000x32_S800000x1_S800000x32_1_0_n_n_0_1_132_wf : GatherDims.WF S100000x32 S800000x1 S800000x32 [1] [0] [] [0] [] 1 ![1, 32]
  dot_S16000x128_S128x64_S16000x64_1_0_0_1_n_n_wf : DotDims.WF S16000x128 S128x64 S16000x64 [1] [0] [0] [1] [] []
  dot_S16000x32_S32x64_S16000x64_1_0_0_1_n_n_wf : DotDims.WF S16000x32 S32x64 S16000x64 [1] [0] [0] [1] [] []
  dot_S16000x64_S64x64_S16000x64_1_0_0_1_n_n_wf : DotDims.WF S16000x64 S64x64 S16000x64 [1] [0] [0] [1] [] []
  dot_S16000x64_S64x32_S16000x32_1_0_0_1_n_n_wf : DotDims.WF S16000x64 S64x32 S16000x32 [1] [0] [0] [1] [] []
  scatter_S100000x32_S800000x1_S800000x32_1_0_0_1_wf : ScatterDims.WF S100000x32 S800000x1 S800000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .f32 = 32 ∨ (Rect.block (s := S800000x128) S16000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S800000x32.size a
  hwx0_1 : ∀ i : grid0.Coords, EltTy.bits .f32 = 32 ∨ (Rect.block (s := S800000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x32.size a ≤ S800000x32.size a
  hwx0_9 : ∀ i : grid0.Coords, EltTy.bits .f32 = 32 ∨ (Rect.block (s := S800000x32) S16000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x64_S64x32_S16000x32_1_0_0_1_n_n : DotDims S16000x64 S64x32 S16000x32 where
  lhsContracting := [1]
  rhsContracting := [0]
  lhsNonContracting := [0]
  rhsNonContracting := [1]
  lhsBatch := []
  rhsBatch := []
  wf := dot_S16000x64_S64x32_S16000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_v28) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S16000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S800000x32 : Shape := ⟨2, ![800000, 32]⟩
abbrev S800000 : Shape := ⟨1, ![800000]⟩
abbrev S160x64 : Shape := ⟨2, ![160, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S_ : Shape := ⟨0, ![]⟩
abbrev S800000x1 : Shape := ⟨2, ![800000, 1]⟩
abbrev S800000x160 : Shape := ⟨2, ![800000, 160]⟩
abbrev S800000x64 : Shape := ⟨2, ![800000, 64]⟩
abbrev S1x64 : Shape := ⟨2, ![1, 64]⟩
abbrev S1x32 : Shape := ⟨2, ![1, 32]⟩

abbrev nBuf : Space → Nat
  | .hbm => 78
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S800000x32, .f32⟩
  | .hbm, ⟨3, _⟩ => ⟨S800000, .i32⟩
  | .hbm, ⟨4, _⟩ => ⟨S800000, .i32⟩
  | .hbm, ⟨5, _⟩ => ⟨S160x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x32, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x32, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x32, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x32, .f32⟩
  | .hbm, ⟨48, _⟩ => ⟨S800000x160, .f32⟩
  | .hbm, ⟨49, _⟩ => ⟨S800000x64, .f32⟩
  | .hbm, ⟨50, _⟩ => ⟨S1x64, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S1x64, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S800000x32, .f32⟩
  | .hbm, ⟨64, _⟩ => ⟨S1x32, .f32⟩
  | .hbm, ⟨65, _⟩ => ⟨S800000x32, .f32⟩
  | .hbm, ⟨66, _⟩ => ⟨S800000x32, .f32⟩
  | .hbm, ⟨67, _⟩ => ⟨S_, .f32⟩
  | .hbm, ⟨68, _⟩ => ⟨S800000x32, .f32⟩
  | .hbm, ⟨69, _⟩ => ⟨S800000x32, .f32⟩
  | .hbm, ⟨70, _⟩ => ⟨S800000x32, .f32⟩
  | .hbm, ⟨71, _⟩ => ⟨S800000x32, .f32⟩
  | .hbm, ⟨72, _⟩ => ⟨S_, .f32⟩
  | .hbm, ⟨73, _⟩ => ⟨S100000x32, .f32⟩
  | .hbm, ⟨74, _⟩ => ⟨S800000x1, .i32⟩
  | .hbm, ⟨75, _⟩ => ⟨S100000x32, .f32⟩
  | .hbm, ⟨76, _⟩ => ⟨S100000x32, .f32⟩
  | .hbm, ⟨77, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_cst : Ref sig .tc := ⟨.hbm, 60, rfl⟩
abbrev main_call1_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x32_S800000x32_S800000x32_S800000x160_d1 : Shape.Concatenates [S800000x32, S800000x32, S800000x32, S800000x32, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S100000x32 : S_.BroadcastsInDim S100000x32 (![] : Fin 0 → Fin S100000x32.rank)
  gather_S100000x32_S800000x1_S800000x32_1_0_n_n_0_1_132_wf : GatherDims.WF S100000x32 S800000x1 S800000x32 [1] [0] [] [0] [] 1 ![1, 32]
  dot_S800000x160_S160x64_S800000x64_1_0_0_1_n_n_wf : DotDims.WF S800000x160 S160x64 S800000x64 [1] [0] [0] [1] [] []
  dot_S800000x64_S64x64_S800000x64_1_0_0_1_n_n_wf : DotDims.WF S800000x64 S64x64 S800000x64 [1] [0] [0] [1] [] []
  dot_S800000x64_S64x32_S800000x32_1_0_0_1_n_n_wf : DotDims.WF S800000x64 S64x32 S800000x32 [1] [0] [0] [1] [] []
  scatter_S100000x32_S800000x1_S800000x32_1_0_0_1_wf : ScatterDims.WF S100000x32 S800000x1 S800000x32 [1] [0] [0] 1
  dot_S100000x32_S32x32_S100000x32_1_0_0_1_n_n_wf : DotDims.WF S100000x32 S32x32 S100000x32 [1] [0] [0] [1] [] []

variable [Facts₀]

def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Kernel.Region0.lean ====
/-
  Region 0 of the program (the edge network) as the pipeline library sees it: the block each window hands the body at a grid
  point, the body's run on whole staging buffers (one store covering the output block, its value the body's arithmetic on the
  loaded blocks), and the per-point obligation of the pipeline. Everything is stated at the contents `V` the core's buffers hold
  when the region is entered, so that the run of the whole program can instantiate it.
-/
import proofs.«166699_j21114059227743_2_alg».proof.Proof.Gen.Kernel.Launch
import proofs.«166699_j21114059227743_2_alg».proof.Proof.Gen.Kernel.Skeleton
import proofs.«166699_j21114059227743_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The blocks the region reads

The region is entered with the core's buffers at some contents `V`; every lemma below is stated at that parameter. -/

variable (V : (c : Dev nD) → (b : Ref sig .tc) → Buf (Elt F) ((c : Thread nD τ).loc b))

/-- The block of window `w` at grid point `t`, cut out of the window's array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index then did not move). Window 0. -/
theorem found0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 1. -/
theorem found0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 2. -/
theorem found0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 3. -/
theorem found0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 4. -/
theorem found0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 5. -/
theorem found0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 6. -/
theorem found0_6_of {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 7. -/
theorem found0_7_of {c : Dev nD} (dat : Dat τ (Elt F) Unit ℕ (UR sig nD τ) ℕ cfg0 c) (hA : dat.A 7 = V c (Pipeline.arrRef spec0 7))
    (hafter : ∀ t, dat.after 7 t = blockAt0 V c 7 t) (t : Fin cfg0.N) (d) : dat.before 7 t d = blockAt0 V c 7 t :=
  (dat.before_in_eq_fetched 7 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 8. -/
theorem found0_8_of {c : Dev nD} (dat : Dat τ (Elt F) Unit ℕ (UR sig nD τ) ℕ cfg0 c) (hA : dat.A 8 = V c (Pipeline.arrRef spec0 8))
    (hafter : ∀ t, dat.after 8 t = blockAt0 V c 8 t) (t : Fin cfg0.N) (d) : dat.before 8 t d = blockAt0 V c 8 t :=
  (dat.before_in_eq_fetched 8 rfl (fun _ => rfl) (fun _ _ _ => rfl) (fun t => by rw [hafter]; unfold Dat.blockOf blockAt0; rw [hA]; try rfl) t d).trans
    (by unfold Dat.fetched Dat.blockOf blockAt0; rw [hA]; try rfl)

/-! ## What the body stores

The body stores once, over the whole output block: the value of its arithmetic on what it loaded. -/

/-- The output block after the body, as a function of the input blocks. -/
def stored0 (x0 : Vec F S16000x128 .f32) (x1 : Vec F S16000x32 .f32) (x2 : Vec F S128x64 .f32) (x3 : Vec F S32x64 .f32) (x4 : Vec F S1x64 .f32) (x5 : Vec F S64x64 .f32) (x6 : Vec F S1x64 .f32) (x7 : Vec F S64x32 .f32) (x8 : Vec F S1x32 .f32) : Vec F S16000x32 .f32 :=
  View.canon [⟨(Rect.unit (s := S16000x32) ![0, 0] S16000x32.size inb_S16000x32_S16000x32_0_0), k0_pay1 (k0_pay3 (View.ld x0 (Rect.unit (s := S16000x128) ![0, 0] S16000x128.size inb_S16000x128_S16000x128_0_0)) (View.ld x2 (Rect.unit (s := S128x64) ![0, 0] S128x64.size inb_S128x64_S128x64_0_0)) (View.ld x1 (Rect.unit (s := S16000x32) ![0, 0] S16000x32.size inb_S16000x32_S16000x32_0_0)) (View.ld x3 (Rect.unit (s := S32x64) ![0, 0] S32x64.size inb_S32x64_S32x64_0_0)) (View.ld x4 (Rect.unit (s := S1x64) ![0, 0] S1x64.size inb_S1x64_S1x64_0_0)) (View.ld x5 (Rect.unit (s := S64x64) ![0, 0] S64x64.size inb_S64x64_S64x64_0_0)) (View.ld x6 (Rect.unit (s := S1x64) ![0, 0] S1x64.size inb_S1x64_S1x64_0_0)) (View.ld x7 (Rect.unit (s := S64x32) ![0, 0] S64x32.size inb_S64x32_S64x32_0_0)) (View.ld x8 (Rect.unit (s := S1x32) ![0, 0] S1x32.size inb_S1x32_S1x32_0_0))) (k0_pay4 (View.ld x0 (Rect.unit (s := S16000x128) ![0, 0] S16000x128.size inb_S16000x128_S16000x128_0_0))) (k0_pay5 (View.ld x0 (Rect.unit (s := S16000x128) ![0, 0] S16000x128.size inb_S16000x128_S16000x128_0_0)))⟩]

/-- The one store covers the output block. -/
theorem covers0 (p0 : Vec F S16000x32 .f32) (y : S16000x32.Idx) :
    ∃ pc ∈ ([⟨(Rect.unit (s := S16000x32) ![0, 0] S16000x32.size inb_S16000x32_S16000x32_0_0), p0⟩] : List (View.Piece (Elt F) S16000x32 .f32)), y ∈ pc.1.set :=
  View.cover_of_tiled [⟨(Rect.unit (s := S16000x32) ![0, 0] S16000x32.size inb_S16000x32_S16000x32_0_0), p0⟩] S16000x32.size (by rfl) y

/-! ## The body's triple -/

set_option maxHeartbeats 4000000 in
/-- Run on whole staging buffers, the inputs' holding `x·` and the output's holding anything, the body ends with the inputs'
    as they were and the output's holding `stored0` of them. -/
theorem body_triple0 (c : Dev nD) (E : Set ℕ) (i : grid0.Coords) (a0 : Memref sig .tc .vmem S16000x128 .f32) (ha0 : a0.IsWhole) (a1 : Memref sig .tc .vmem S16000x32 .f32) (ha1 : a1.IsWhole) (a2 : Memref sig .tc .vmem S128x64 .f32) (ha2 : a2.IsWhole) (a3 : Memref sig .tc .vmem S32x64 .f32) (ha3 : a3.IsWhole) (a4 : Memref sig .tc .vmem S1x64 .f32) (ha4 : a4.IsWhole) (a5 : Memref sig .tc .vmem S64x64 .f32) (ha5 : a5.IsWhole) (a6 : Memref sig .tc .vmem S1x64 .f32) (ha6 : a6.IsWhole) (a7 : Memref sig .tc .vmem S64x32 .f32) (ha7 : a7.IsWhole) (a8 : Memref sig .tc .vmem S1x32 .f32) (ha8 : a8.IsWhole) (a9 : Memref sig .tc .vmem S16000x32 .f32) (ha9 : a9.IsWhole)
    (x0 : Vec F S16000x128 .f32) (x1 : Vec F S16000x32 .f32) (x2 : Vec F S128x64 .f32) (x3 : Vec F S32x64 .f32) (x4 : Vec F S1x64 .f32) (x5 : Vec F S64x64 .f32) (x6 : Vec F S1x64 .f32) (x7 : Vec F S64x32 .f32) (x8 : Vec F S1x32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (stored0 x0 x1 x2 x3 x4 x5 x6 x7 x8)) -∗ K ⟨⟩))
      ⊢ wp frame (wpE (defs₀ (F := F)) Variants.none c none) E (cc0__edge_mlp_kernel i a0 ha0 a1 ha1 a2 ha2 a3 ha3 a4 ha4 a5 ha5 a6 ha6 a7 ha7 a8 ha8 a9 ha9) K := by
  simp only [cc0__edge_mlp_kernel_eq_skeleton]; unfold cc0__edge_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (covers0 _)

/-! ## The pipeline's proof data -/

/-- Per core: the windows' arrays as the region finds them; after the body at a point each input's buffer still at its block, the
    output's at `stored0` of the input blocks; the invariant is the scoped rest and the generator register, untouched; nothing
    is owed and every share is full. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => blockAt0 V c 7 t
    | ⟨8, _⟩ => blockAt0 V c 8 t
    | ⟨9, _⟩ => stored0 (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = blockAt0 V c 2 t := by dsimp only [data0]
theorem data0_after_3 (c : Dev nD) (t : Fin cfg0.N) : (data0 V c).after 3 t = blockAt0 V c 3 t := by dsimp only [data0]
theorem data0_after_4 (c : Dev nD) (t : Fin cfg0.N) : (data0 V c).after 4 t = blockAt0 V c 4 t := by dsimp only [data0]
theorem data0_after_5 (c : Dev nD) (t : Fin cfg0.N) : (data0 V c).after 5 t = blockAt0 V c 5 t := by dsimp only [data0]
theorem data0_after_6 (c : Dev nD) (t : Fin cfg0.N) : (data0 V c).after 6 t = blockAt0 V c 6 t := by dsimp only [data0]
theorem data0_after_7 (c : Dev nD) (t : Fin cfg0.N) : (data0 V c).after 7 t = blockAt0 V c 7 t := by dsimp only [data0]
theorem data0_after_8 (c : Dev nD) (t : Fin cfg0.N) : (data0 V c).after 8 t = blockAt0 V c 8 t := by dsimp only [data0]
theorem data0_after_9 (c : Dev nD) (t : Fin cfg0.N) : (data0 V c).after 9 t = stored0 (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]

theorem found0_0 (c : Dev nD) (t : Fin cfg0.N) (d) : (data0 V c).before 0 t d = blockAt0 V c 0 t :=
  found0_0_of V (data0 V c) (data0_A V c 0) (data0_after_0 V c) t d
theorem found0_1 (c : Dev nD) (t : Fin cfg0.N) (d) : (data0 V c).before 1 t d = blockAt0 V c 1 t :=
  found0_1_of V (data0 V c) (data0_A V c 1) (data0_after_1 V c) t d
theorem found0_2 (c : Dev nD) (t : Fin cfg0.N) (d) : (data0 V c).before 2 t d = blockAt0 V c 2 t :=
  found0_2_of V (data0 V c) (data0_A V c 2) (data0_after_2 V c) t d
theorem found0_3 (c : Dev nD) (t : Fin cfg0.N) (d) : (data0 V c).before 3 t d = blockAt0 V c 3 t :=
  found0_3_of V (data0 V c) (data0_A V c 3) (data0_after_3 V c) t d
theorem found0_4 (c : Dev nD) (t : Fin cfg0.N) (d) : (data0 V c).before 4 t d = blockAt0 V c 4 t :=
  found0_4_of V (data0 V c) (data0_A V c 4) (data0_after_4 V c) t d
theorem found0_5 (c : Dev nD) (t : Fin cfg0.N) (d) : (data0 V c).before 5 t d = blockAt0 V c 5 t :=
  found0_5_of V (data0 V c) (data0_A V c 5) (data0_after_5 V c) t d
theorem found0_6 (c : Dev nD) (t : Fin cfg0.N) (d) : (data0 V c).before 6 t d = blockAt0 V c 6 t :=
  found0_6_of V (data0 V c) (data0_A V c 6) (data0_after_6 V c) t d
theorem found0_7 (c : Dev nD) (t : Fin cfg0.N) (d) : (data0 V c).before 7 t d = blockAt0 V c 7 t :=
  found0_7_of V (data0 V c) (data0_A V c 7) (data0_after_7 V c) t d
theorem found0_8 (c : Dev nD) (t : Fin cfg0.N) (d) : (data0 V c).before 8 t d = blockAt0 V c 8 t :=
  found0_8_of V (data0 V c) (data0_A V c 8) (data0_after_8 V c) t d

/-! ## The body obligation at a generic point -/

/-- What the pipeline hands the body at point `t`, window by window, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d))
    ∗ (∃ d, owns (c : Thread nD τ) (st0_9 t) fullShare ((data0 V c).before 9 t d)))

/-- and what the body gives back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t)
    ∗ owns (c : Thread nD τ) (st0_8 t) fullShare ((data0 V c).after 8 t)
    ∗ owns (c : Thread nD τ) (st0_9 t) fullShare ((data0 V c).after 9 t))

set_option maxHeartbeats 2000000 in
/-- At any point the inputs' buffers hold their blocks, so the body's triple applies; the invariant and the core's dues pass through. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2, found0_3, found0_4, found0_5, found0_6, found0_7, found0_8]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5, data0_after_6, data0_after_7, data0_after_8, data0_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple0 c Set.univ _ _ _ _ _ _ _ _ _ _ _ _ _ _ _ _ _ _ _ _ _ (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (data0 (F := F) V c) (defs₀ (F := F)) Variants.none () Set.univ := fun t => by
  rw [bigSep_W0, bigSep_W0]
  exact body_at0 V c t

end Cert.Kernel.Regions

end
-- ==== Proof.Kernel.Region1.lean ====
/-
  Region 1 of the program (the residual update) as the pipeline library sees it: the block each window hands the body at a grid
  point, the body's run on whole staging buffers (one store covering the output block, its value the body's arithmetic on the
  loaded blocks), and the per-point obligation of the pipeline. Everything is stated at the contents `V` the core's buffers hold
  when the region is entered, so that the run of the whole program can instantiate it.
-/
import proofs.«166699_j21114059227743_2_alg».proof.Proof.Gen.Kernel.Launch
import proofs.«166699_j21114059227743_2_alg».proof.Proof.Gen.Kernel.Skeleton
import proofs.«166699_j21114059227743_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The blocks the region reads

The region is entered with the core's buffers at some contents `V`; every lemma below is stated at that parameter. -/

variable (V : (c : Dev nD) → (b : Ref sig .tc) → Buf (Elt F) ((c : Thread nD τ).loc b))

/-- The block of window `w` at grid point `t`, cut out of the window's array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    kept it from the point before (its block index then did not move). Window 0. -/
theorem found1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- An input window's staging buffer holds the window's block at every point, whether the pipeline fetched it there or
    kept it from the point before (its block index then did not move). Window 1. -/
theorem found1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-! ## What the body stores

The body stores once, over the whole output block: the value of its arithmetic on what it loaded. -/

/-- The output block after the body, as a function of the input blocks. -/
def stored1 (x0 : Vec F S10000x64 .f32) (x1 : Vec F S32x32 .f32) : Vec F S10000x32 .f32 :=
  View.canon [⟨(Rect.unit (s := S10000x32) ![0, 0] S10000x32.size inb_S10000x32_S10000x32_0_0), k1_pay1 (View.ld x0 (Rect.unit (s := S10000x64) ![0, 0] S10000x64.size inb_S10000x64_S10000x64_0_0)) (View.ld x1 (Rect.unit (s := S32x32) ![0, 0] S32x32.size inb_S32x32_S32x32_0_0))⟩]

/-- The one store covers the output block. -/
theorem covers1 (p0 : Vec F S10000x32 .f32) (y : S10000x32.Idx) :
    ∃ pc ∈ ([⟨(Rect.unit (s := S10000x32) ![0, 0] S10000x32.size inb_S10000x32_S10000x32_0_0), p0⟩] : List (View.Piece (Elt F) S10000x32 .f32)), y ∈ pc.1.set :=
  View.cover_of_tiled [⟨(Rect.unit (s := S10000x32) ![0, 0] S10000x32.size inb_S10000x32_S10000x32_0_0), p0⟩] S10000x32.size (by rfl) y

/-! ## The body's triple -/

set_option maxHeartbeats 4000000 in
/-- Run on whole staging buffers, the inputs' holding `x·` and the output's holding anything, the body ends with the inputs'
    as they were and the output's holding `stored1` of them. -/
theorem body_triple1 (c : Dev nD) (E : Set ℕ) (i : grid1.Coords) (a0 : Memref sig .tc .vmem S10000x64 .f32) (ha0 : a0.IsWhole) (a1 : Memref sig .tc .vmem S32x32 .f32) (ha1 : a1.IsWhole) (a2 : Memref sig .tc .vmem S10000x32 .f32) (ha2 : a2.IsWhole)
    (x0 : Vec F S10000x64 .f32) (x1 : Vec F S32x32 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored1 x0 x1)) -∗ K ⟨⟩))
      ⊢ wp frame (wpE (defs₀ (F := F)) Variants.none c none) E (cc1__residual_kernel i a0 ha0 a1 ha1 a2 ha2) K := by
  simp only [cc1__residual_kernel_eq_skeleton]; unfold cc1__residual_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1 _)

/-! ## The pipeline's proof data -/

/-- Per core: the windows' arrays as the region finds them; after the body at a point each input's buffer still at its block, the
    output's at `stored1` of the input blocks; the invariant is the scoped rest and the generator register, untouched; nothing
    is owed and every share is full. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => stored1 (blockAt1 V c 0 t) (blockAt1 V c 1 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = stored1 (blockAt1 V c 0 t) (blockAt1 V c 1 t) := by dsimp only [data1]

theorem found1_0 (c : Dev nD) (t : Fin cfg1.N) (d) : (data1 V c).before 0 t d = blockAt1 V c 0 t :=
  found1_0_of V (data1 V c) (data1_A V c 0) (data1_after_0 V c) t d
theorem found1_1 (c : Dev nD) (t : Fin cfg1.N) (d) : (data1 V c).before 1 t d = blockAt1 V c 1 t :=
  found1_1_of V (data1 V c) (data1_A V c 1) (data1_after_1 V c) t d

/-! ## The body obligation at a generic point -/

/-- What the pipeline hands the body at point `t`, window by window, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what the body gives back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

set_option maxHeartbeats 2000000 in
/-- At any point the inputs' buffers hold their blocks, so the body's triple applies; the invariant and the core's dues pass through. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1]
  rw [show (data1 V c).Φ t.succ = (data1 V c).Φ t.castSucc from rfl,
    show (data1 V c).owesAt () t.succ = (data1 V c).owesAt () t.castSucc from rfl,
    data1_after_0, data1_after_1, data1_after_2]
  iintro ⟨HΦ, Ho, ⟨%d0, H0⟩, ⟨%d1, H1⟩, ⟨%d2, H2⟩⟩
  iapply (body_triple1 c Set.univ _ _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (data1 (F := F) V c) (defs₀ (F := F)) Variants.none () Set.univ := fun t => by
  rw [bigSep_W1, bigSep_W1]
  exact body_at1 V c t

end Cert.Kernel.Regions

end
-- ==== Proof.Kernel.Run.lean ====
/-
  The run of the whole program: host operations, the edge-network region, host operations, the residual region.
  Between two of these four items every unscoped buffer of a core holds a known value, obtained from the launch memory by folding
  the items in order: a stretch of host operations applies each operation to its operands; a region leaves every buffer as it
  found it except its output window's array, which ends holding what the write-backs of all grid points leave. The last of
  these values is read off the final state, so the run's conclusion names the final contents of every unscoped buffer: the
  arguments (no item writes them) and the result.
-/
import proofs.«166699_j21114059227743_2_alg».proof.Proof.Kernel.Region0
import proofs.«166699_j21114059227743_2_alg».proof.Proof.Kernel.Region1
import proofs.«166699_j21114059227743_2_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev B0 : Dev nD → Valuation τ sig (Elt F) := fun c b => m (c, b)
/-- After the first stretch of host operations: what the edge-network region is entered with. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the edge-network region: its arrays at what the pipeline leaves, every other buffer as entered. -/
def B2 (c : Dev nD) : Valuation τ sig (Elt F) :=
  Pipeline.withArrays spec0 c (B1 m c) fun w => (data0 (E1 m) c).arrAt w cfg0.N
theorem B2_arr (c : Dev nD) (w : Fin cfg0.W) :
    B2 m c (Proc.devRef .tc (Pipeline.arrRef spec0 w)) = (data0 (E1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (data0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_other m c b fun w e => hb (Finset.mem_image.mpr ⟨w, Finset.mem_univ _, e⟩)

/-- After the second stretch of host operations: what the residual region is entered with. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- After the residual region: the final contents. -/
def B4 (c : Dev nD) : Valuation τ sig (Elt F) :=
  Pipeline.withArrays spec1 c (B3 m c) fun w => (data1 (E3 m) c).arrAt w cfg1.N
theorem B4_arr (c : Dev nD) (w : Fin cfg1.W) :
    B4 m c (Proc.devRef .tc (Pipeline.arrRef spec1 w)) = (data1 (E3 m) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem left1 (c : Dev nD) (w : Fin cfg1.W) : (data1 (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_other m c b fun w e => hb (Finset.mem_image.mpr ⟨w, Finset.mem_univ _, e⟩)

/-! ## No item writes an argument

A host operation writes only its result buffer, which is no argument; a region changes only its output array, and an argument
that is an input window's array ends the region as it entered it. So the fold at an argument walks back to the launch memory. -/

theorem final_arg0 (c : Dev nD) : B4 m c (Proc.devRef .tc main_arg0) = m ((c : Thread nD τ).loc main_arg0) :=
  calc B4 m c (Proc.devRef .tc main_arg0)
    _ = B3 m c (Proc.devRef .tc main_arg0) := B4_other m c main_arg0 (by decide)
    _ = B2 m c (Proc.devRef .tc main_arg0) := StableHlo.after_of_writes_sub hostOps1 _ hostOps1_writes (by decide)
    _ = B1 m c (Proc.devRef .tc main_arg0) := B2_other m c main_arg0 (by decide)
    _ = B0 m c (Proc.devRef .tc main_arg0) := StableHlo.after_of_writes_sub hostOps0 _ hostOps0_writes (by decide)
    _ = m ((c : Thread nD τ).loc main_arg0) := rfl
theorem final_arg1 (c : Dev nD) : B4 m c (Proc.devRef .tc main_arg1) = m ((c : Thread nD τ).loc main_arg1) :=
  calc B4 m c (Proc.devRef .tc main_arg1)
    _ = B3 m c (Proc.devRef .tc main_arg1) := B4_other m c main_arg1 (by decide)
    _ = B2 m c (Proc.devRef .tc main_arg1) := StableHlo.after_of_writes_sub hostOps1 _ hostOps1_writes (by decide)
    _ = B1 m c (Proc.devRef .tc main_arg1) := B2_other m c main_arg1 (by decide)
    _ = B0 m c (Proc.devRef .tc main_arg1) := StableHlo.after_of_writes_sub hostOps0 _ hostOps0_writes (by decide)
    _ = m ((c : Thread nD τ).loc main_arg1) := rfl
theorem final_arg2 (c : Dev nD) : B4 m c (Proc.devRef .tc main_arg2) = m ((c : Thread nD τ).loc main_arg2) :=
  calc B4 m c (Proc.devRef .tc main_arg2)
    _ = B3 m c (Proc.devRef .tc main_arg2) := B4_other m c main_arg2 (by decide)
    _ = B2 m c (Proc.devRef .tc main_arg2) := StableHlo.after_of_writes_sub hostOps1 _ hostOps1_writes (by decide)
    _ = B1 m c (Proc.devRef .tc main_arg2) := (B2_arr m c 1).trans (((data0 (E1 m) c).arrAt_in 1 rfl _).trans (data0_A (E1 m) c 1))
    _ = B0 m c (Proc.devRef .tc main_arg2) := StableHlo.after_of_writes_sub hostOps0 _ hostOps0_writes (by decide)
    _ = m ((c : Thread nD τ).loc main_arg2) := rfl
theorem final_arg3 (c : Dev nD) : B4 m c (Proc.devRef .tc main_arg3) = m ((c : Thread nD τ).loc main_arg3) :=
  calc B4 m c (Proc.devRef .tc main_arg3)
    _ = B3 m c (Proc.devRef .tc main_arg3) := B4_other m c main_arg3 (by decide)
    _ = B2 m c (Proc.devRef .tc main_arg3) := StableHlo.after_of_writes_sub hostOps1 _ hostOps1_writes (by decide)
    _ = B1 m c (Proc.devRef .tc main_arg3) := B2_other m c main_arg3 (by decide)
    _ = B0 m c (Proc.devRef .tc main_arg3) := StableHlo.after_of_writes_sub hostOps0 _ hostOps0_writes (by decide)
    _ = m ((c : Thread nD τ).loc main_arg3) := rfl
theorem final_arg4 (c : Dev nD) : B4 m c (Proc.devRef .tc main_arg4) = m ((c : Thread nD τ).loc main_arg4) :=
  calc B4 m c (Proc.devRef .tc main_arg4)
    _ = B3 m c (Proc.devRef .tc main_arg4) := B4_other m c main_arg4 (by decide)
    _ = B2 m c (Proc.devRef .tc main_arg4) := StableHlo.after_of_writes_sub hostOps1 _ hostOps1_writes (by decide)
    _ = B1 m c (Proc.devRef .tc main_arg4) := B2_other m c main_arg4 (by decide)
    _ = B0 m c (Proc.devRef .tc main_arg4) := StableHlo.after_of_writes_sub hostOps0 _ hostOps0_writes (by decide)
    _ = m ((c : Thread nD τ).loc main_arg4) := rfl
theorem final_arg5 (c : Dev nD) : B4 m c (Proc.devRef .tc main_arg5) = m ((c : Thread nD τ).loc main_arg5) :=
  calc B4 m c (Proc.devRef .tc main_arg5)
    _ = B3 m c (Proc.devRef .tc main_arg5) := B4_other m c main_arg5 (by decide)
    _ = B2 m c (Proc.devRef .tc main_arg5) := StableHlo.after_of_writes_sub hostOps1 _ hostOps1_writes (by decide)
    _ = B1 m c (Proc.devRef .tc main_arg5) := B2_other m c main_arg5 (by decide)
    _ = B0 m c (Proc.devRef .tc main_arg5) := StableHlo.after_of_writes_sub hostOps0 _ hostOps0_writes (by decide)
    _ = m ((c : Thread nD τ).loc main_arg5) := rfl
theorem final_arg6 (c : Dev nD) : B4 m c (Proc.devRef .tc main_arg6) = m ((c : Thread nD τ).loc main_arg6) :=
  calc B4 m c (Proc.devRef .tc main_arg6)
    _ = B3 m c (Proc.devRef .tc main_arg6) := B4_other m c main_arg6 (by decide)
    _ = B2 m c (Proc.devRef .tc main_arg6) := StableHlo.after_of_writes_sub hostOps1 _ hostOps1_writes (by decide)
    _ = B1 m c (Proc.devRef .tc main_arg6) := B2_other m c main_arg6 (by decide)
    _ = B0 m c (Proc.devRef .tc main_arg6) := StableHlo.after_of_writes_sub hostOps0 _ hostOps0_writes (by decide)
    _ = m ((c : Thread nD τ).loc main_arg6) := rfl
theorem final_arg7 (c : Dev nD) : B4 m c (Proc.devRef .tc main_arg7) = m ((c : Thread nD τ).loc main_arg7) :=
  calc B4 m c (Proc.devRef .tc main_arg7)
    _ = B3 m c (Proc.devRef .tc main_arg7) := B4_other m c main_arg7 (by decide)
    _ = B2 m c (Proc.devRef .tc main_arg7) := StableHlo.after_of_writes_sub hostOps1 _ hostOps1_writes (by decide)
    _ = B1 m c (Proc.devRef .tc main_arg7) := (B2_arr m c 5).trans (((data0 (E1 m) c).arrAt_in 5 rfl _).trans (data0_A (E1 m) c 5))
    _ = B0 m c (Proc.devRef .tc main_arg7) := StableHlo.after_of_writes_sub hostOps0 _ hostOps0_writes (by decide)
    _ = m ((c : Thread nD τ).loc main_arg7) := rfl
theorem final_arg8 (c : Dev nD) : B4 m c (Proc.devRef .tc main_arg8) = m ((c : Thread nD τ).loc main_arg8) :=
  calc B4 m c (Proc.devRef .tc main_arg8)
    _ = B3 m c (Proc.devRef .tc main_arg8) := B4_other m c main_arg8 (by decide)
    _ = B2 m c (Proc.devRef .tc main_arg8) := StableHlo.after_of_writes_sub hostOps1 _ hostOps1_writes (by decide)
    _ = B1 m c (Proc.devRef .tc main_arg8) := B2_other m c main_arg8 (by decide)
    _ = B0 m c (Proc.devRef .tc main_arg8) := StableHlo.after_of_writes_sub hostOps0 _ hostOps0_writes (by decide)
    _ = m ((c : Thread nD τ).loc main_arg8) := rfl
theorem final_arg9 (c : Dev nD) : B4 m c (Proc.devRef .tc main_arg9) = m ((c : Thread nD τ).loc main_arg9) :=
  calc B4 m c (Proc.devRef .tc main_arg9)
    _ = B3 m c (Proc.devRef .tc main_arg9) := B4_other m c main_arg9 (by decide)
    _ = B2 m c (Proc.devRef .tc main_arg9) := StableHlo.after_of_writes_sub hostOps1 _ hostOps1_writes (by decide)
    _ = B1 m c (Proc.devRef .tc main_arg9) := (B2_arr m c 7).trans (((data0 (E1 m) c).arrAt_in 7 rfl _).trans (data0_A (E1 m) c 7))
    _ = B0 m c (Proc.devRef .tc main_arg9) := StableHlo.after_of_writes_sub hostOps0 _ hostOps0_writes (by decide)
    _ = m ((c : Thread nD τ).loc main_arg9) := rfl
theorem final_arg10 (c : Dev nD) : B4 m c (Proc.devRef .tc main_arg10) = m ((c : Thread nD τ).loc main_arg10) :=
  calc B4 m c (Proc.devRef .tc main_arg10)
    _ = B3 m c (Proc.devRef .tc main_arg10) := B4_other m c main_arg10 (by decide)
    _ = B2 m c (Proc.devRef .tc main_arg10) := StableHlo.after_of_writes_sub hostOps1 _ hostOps1_writes (by decide)
    _ = B1 m c (Proc.devRef .tc main_arg10) := B2_other m c main_arg10 (by decide)
    _ = B0 m c (Proc.devRef .tc main_arg10) := StableHlo.after_of_writes_sub hostOps0 _ hostOps0_writes (by decide)
    _ = m ((c : Thread nD τ).loc main_arg10) := rfl
theorem final_arg11 (c : Dev nD) : B4 m c (Proc.devRef .tc main_arg11) = m ((c : Thread nD τ).loc main_arg11) :=
  calc B4 m c (Proc.devRef .tc main_arg11)
    _ = B3 m c (Proc.devRef .tc main_arg11) := (B4_arr m c 1).trans (((data1 (E3 m) c).arrAt_in 1 rfl _).trans (data1_A (E3 m) c 1))
    _ = B2 m c (Proc.devRef .tc main_arg11) := StableHlo.after_of_writes_sub hostOps1 _ hostOps1_writes (by decide)
    _ = B1 m c (Proc.devRef .tc main_arg11) := B2_other m c main_arg11 (by decide)
    _ = B0 m c (Proc.devRef .tc main_arg11) := StableHlo.after_of_writes_sub hostOps0 _ hostOps0_writes (by decide)
    _ = m ((c : Thread nD τ).loc main_arg11) := rfl

/-- The result buffer ends holding what the residual region's write-backs leave in its output array. -/
theorem final_result (c : Dev nD) : B4 m c (Proc.devRef .tc main_v39) = (data1 (E3 m) c).arrAt 2 cfg1.N :=
  B4_arr m c 2

/-! ## The proof data of both pipelines, and the thread state between items -/

/-- Each pipeline's proof data at its region's entry contents. -/
def pdata : (p : Fin 2) → (c : Dev nD) → Dat τ (Elt F) Unit ℕ (UR sig nD τ) ℕ (Pipeline.pin (pcfgs (F := F)) adm p) c
  | ⟨0, _⟩ => fun c => data0 (E1 m) c
  | ⟨1, _⟩ => fun c => data1 (E3 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, and the core owing nothing. -/
abbrev beside (c : Dev nD) : sProp 𝕄 := iprop((∃ r, prngReg c r) ∗ ∃ W, owes (c : Thread nD τ) (0 : CellTallies nD τ sig Unit) W)
/-- A stretch of host operations as a segment, from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B beside
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at its final contents, the generator register at some state. -/
abbrev lastState (c : Dev nD) : sProp 𝕄 := iprop(StableHlo.held (c : Thread nD τ) (Pipeline.ucRefs τ sig) (B4 m c) ∗ ∃ r, prngReg c r)

/-! ## The regions as segments

A region is entered from "every unscoped buffer at the boundary's contents": its windows' arrays are split out of those buffers and
put back, at the contents the pipeline leaves, when it ends; the generator register goes into the pipeline's invariant and comes back;
nothing is owed; the kernel has no semaphore of its own. -/

set_option backward.isDefEq.respectTransparency.types false in
def region0 : Pipeline.RegionSeg (pcfgs (F := F)) adm (pdata m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (B1 m c) ∗ beside c)
  post c := iprop(StableHlo.held (c : Thread nD τ) (Pipeline.ucRefs τ sig) (B2 m c) ∗ beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdata m) launch0.win launch0.arr_whole c
      ((pdata m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdata m) ((pdata m 0 c).share_full fun _ => rfl)
      (E1 m c) (E2 m c) ((pdata m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdata m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (B3 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdata m) launch1.win launch1.arr_whole c
      ((pdata m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdata m) ((pdata m 1 c).share_full fun _ => rfl)
      (E3 m c) (E4 m c) ((pdata m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the launch -/

abbrev segments : List (Pipeline.Seg (pcfgs (F := F)) adm (pdata m) () defs₀ noVariants noPairs noLevel) :=
  [ .host (stretch hostOps0 hostOps0_sub hostOps0_fresh (B0 m)),
    .region (region0 m),
    .host (stretch hostOps1 hostOps1_sub hostOps1_fresh (B2 m)),
    .region (region1 m) ]
theorem main_is_segments (c : Dev nD) : main (F := F) c = Pipeline.Seg.run (segments m) := (main_chain c).trans (by chain_rfl)

set_option backward.isDefEq.respectTransparency.types false in
/-- From any memory with zero counters every weakly fair execution of the program terminates without a fault, and in the final
    state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdata m) () cellOf_inj emb₁ defs₀ noVariants noPairs noLevel m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ beside c)) (Tₙ := lastState m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (unscoped_mem main_arg0 (by decide))).trans (final_arg0 m c),
    (h c _ (unscoped_mem main_arg1 (by decide))).trans (final_arg1 m c),
    (h c _ (unscoped_mem main_arg2 (by decide))).trans (final_arg2 m c),
    (h c _ (unscoped_mem main_arg3 (by decide))).trans (final_arg3 m c),
    (h c _ (unscoped_mem main_arg4 (by decide))).trans (final_arg4 m c),
    (h c _ (unscoped_mem main_arg5 (by decide))).trans (final_arg5 m c),
    (h c _ (unscoped_mem main_arg6 (by decide))).trans (final_arg6 m c),
    (h c _ (unscoped_mem main_arg7 (by decide))).trans (final_arg7 m c),
    (h c _ (unscoped_mem main_arg8 (by decide))).trans (final_arg8 m c),
    (h c _ (unscoped_mem main_arg9 (by decide))).trans (final_arg9 m c),
    (h c _ (unscoped_mem main_arg10 (by decide))).trans (final_arg10 m c),
    (h c _ (unscoped_mem main_arg11 (by decide))).trans (final_arg11 m c)⟩) (run_all m ρ)

/-- The value: the result buffer ends holding what the residual region's write-backs leave, and the arguments end as launched. -/
theorem run_value : θ_run defs (onTc (τ := τ) (main (F := F))) ⟨m, fun _ => 0, ρ⟩ (fun r => ∀ c : Dev nD,
      r.2.mem ((c.tc : Thread nD τ).loc main_v39) = (data1 (E3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (unscoped_mem main_v39 (by decide))).trans (final_result m c),
    (h c _ (unscoped_mem main_arg0 (by decide))).trans (final_arg0 m c),
    (h c _ (unscoped_mem main_arg1 (by decide))).trans (final_arg1 m c),
    (h c _ (unscoped_mem main_arg2 (by decide))).trans (final_arg2 m c),
    (h c _ (unscoped_mem main_arg3 (by decide))).trans (final_arg3 m c),
    (h c _ (unscoped_mem main_arg4 (by decide))).trans (final_arg4 m c),
    (h c _ (unscoped_mem main_arg5 (by decide))).trans (final_arg5 m c),
    (h c _ (unscoped_mem main_arg6 (by decide))).trans (final_arg6 m c),
    (h c _ (unscoped_mem main_arg7 (by decide))).trans (final_arg7 m c),
    (h c _ (unscoped_mem main_arg8 (by decide))).trans (final_arg8 m c),
    (h c _ (unscoped_mem main_arg9 (by decide))).trans (final_arg9 m c),
    (h c _ (unscoped_mem main_arg10 (by decide))).trans (final_arg10 m c),
    (h c _ (unscoped_mem main_arg11 (by decide))).trans (final_arg11 m c)⟩) (run_all m ρ)

end Cert.Kernel.Regions

end
-- ==== Proof.KernelIdeal.Region0.lean ====
/-
  Region 0 of the program (the edge network) as the pipeline library sees it: the block each window hands the body at a grid
  point, the body's run on whole staging buffers (one store covering the output block, its value the body's arithmetic on the
  loaded blocks), and the per-point obligation of the pipeline. Everything is stated at the contents `V` the core's buffers hold
  when the region is entered, so that the run of the whole program can instantiate it.
-/
import proofs.«166699_j21114059227743_2_alg».proof.Proof.Gen.KernelIdeal.Launch
import proofs.«166699_j21114059227743_2_alg».proof.Proof.Gen.KernelIdeal.Skeleton
import proofs.«166699_j21114059227743_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The blocks the region reads

The region is entered with the core's buffers at some contents `V`; every lemma below is stated at that parameter. -/

variable (V : (c : Dev nD) → (b : Ref sig .tc) → Buf (Elt F) ((c : Thread nD τ).loc b))

/-- The block of window `w` at grid point `t`, cut out of the window's array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it there or
    kept it from the point before (its block index then did not move). Window 0. -/
theorem found0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 1. -/
theorem found0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 2. -/
theorem found0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 3. -/
theorem found0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 4. -/
theorem found0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 5. -/
theorem found0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 6. -/
theorem found0_6_of {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 7. -/
theorem found0_7_of {c : Dev nD} (dat : Dat τ (Elt F) Unit ℕ (UR sig nD τ) ℕ cfg0 c) (hA : dat.A 7 = V c (Pipeline.arrRef spec0 7))
    (hafter : ∀ t, dat.after 7 t = blockAt0 V c 7 t) (t : Fin cfg0.N) (d) : dat.before 7 t d = blockAt0 V c 7 t :=
  (dat.before_in_eq_fetched 7 rfl (fun _ => rfl) (fun _ _ _ => rfl) (fun t => by rw [hafter]; unfold Dat.blockOf blockAt0; rw [hA]; try rfl) t d).trans
    (by unfold Dat.fetched Dat.blockOf blockAt0; rw [hA]; try rfl)

/-- An input window's staging buffer holds the window's block at every point, whether the pipeline fetched it there or
    kept it from the point before (its block index then did not move). Window 8. -/
theorem found0_8_of {c : Dev nD} (dat : Dat τ (Elt F) Unit ℕ (UR sig nD τ) ℕ cfg0 c) (hA : dat.A 8 = V c (Pipeline.arrRef spec0 8))
    (hafter : ∀ t, dat.after 8 t = blockAt0 V c 8 t) (t : Fin cfg0.N) (d) : dat.before 8 t d = blockAt0 V c 8 t :=
  (dat.before_in_eq_fetched 8 rfl (fun _ => rfl) (fun _ _ _ => rfl) (fun t => by rw [hafter]; unfold Dat.blockOf blockAt0; rw [hA]; try rfl) t d).trans
    (by unfold Dat.fetched Dat.blockOf blockAt0; rw [hA]; try rfl)

/-! ## What the body stores

The body stores once, over the whole output block: the value of its arithmetic on what it loaded. -/

/-- The output block after the body, as a function of the input blocks. -/
def stored0 (x0 : Vec F S16000x128 .f32) (x1 : Vec F S16000x32 .f32) (x2 : Vec F S128x64 .f32) (x3 : Vec F S32x64 .f32) (x4 : Vec F S1x64 .f32) (x5 : Vec F S64x64 .f32) (x6 : Vec F S1x64 .f32) (x7 : Vec F S64x32 .f32) (x8 : Vec F S1x32 .f32) : Vec F S16000x32 .f32 :=
  View.canon [⟨(Rect.unit (s := S16000x32) ![0, 0] S16000x32.size inb_S16000x32_S16000x32_0_0), k0_pay1 (k0_pay3 (View.ld x0 (Rect.unit (s := S16000x128) ![0, 0] S16000x128.size inb_S16000x128_S16000x128_0_0)) (View.ld x2 (Rect.unit (s := S128x64) ![0, 0] S128x64.size inb_S128x64_S128x64_0_0)) (View.ld x1 (Rect.unit (s := S16000x32) ![0, 0] S16000x32.size inb_S16000x32_S16000x32_0_0)) (View.ld x3 (Rect.unit (s := S32x64) ![0, 0] S32x64.size inb_S32x64_S32x64_0_0)) (View.ld x4 (Rect.unit (s := S1x64) ![0, 0] S1x64.size inb_S1x64_S1x64_0_0)) (View.ld x5 (Rect.unit (s := S64x64) ![0, 0] S64x64.size inb_S64x64_S64x64_0_0)) (View.ld x6 (Rect.unit (s := S1x64) ![0, 0] S1x64.size inb_S1x64_S1x64_0_0)) (View.ld x7 (Rect.unit (s := S64x32) ![0, 0] S64x32.size inb_S64x32_S64x32_0_0)) (View.ld x8 (Rect.unit (s := S1x32) ![0, 0] S1x32.size inb_S1x32_S1x32_0_0))) (k0_pay4 (View.ld x0 (Rect.unit (s := S16000x128) ![0, 0] S16000x128.size inb_S16000x128_S16000x128_0_0))) (k0_pay5 (View.ld x0 (Rect.unit (s := S16000x128) ![0, 0] S16000x128.size inb_S16000x128_S16000x128_0_0)))⟩]

/-- The one store covers the output block. -/
theorem covers0 (p0 : Vec F S16000x32 .f32) (y : S16000x32.Idx) :
    ∃ pc ∈ ([⟨(Rect.unit (s := S16000x32) ![0, 0] S16000x32.size inb_S16000x32_S16000x32_0_0), p0⟩] : List (View.Piece (Elt F) S16000x32 .f32)), y ∈ pc.1.set :=
  View.cover_of_tiled [⟨(Rect.unit (s := S16000x32) ![0, 0] S16000x32.size inb_S16000x32_S16000x32_0_0), p0⟩] S16000x32.size (by rfl) y

/-! ## The body's triple -/

set_option maxHeartbeats 4000000 in
/-- Run on whole staging buffers, the inputs' holding `x·` and the output's holding anything, the body ends with the inputs'
    as they were and the output's holding `stored0` of them. -/
theorem body_triple0 (c : Dev nD) (E : Set ℕ) (i : grid0.Coords) (a0 : Memref sig .tc .vmem S16000x128 .f32) (ha0 : a0.IsWhole) (a1 : Memref sig .tc .vmem S16000x32 .f32) (ha1 : a1.IsWhole) (a2 : Memref sig .tc .vmem S128x64 .f32) (ha2 : a2.IsWhole) (a3 : Memref sig .tc .vmem S32x64 .f32) (ha3 : a3.IsWhole) (a4 : Memref sig .tc .vmem S1x64 .f32) (ha4 : a4.IsWhole) (a5 : Memref sig .tc .vmem S64x64 .f32) (ha5 : a5.IsWhole) (a6 : Memref sig .tc .vmem S1x64 .f32) (ha6 : a6.IsWhole) (a7 : Memref sig .tc .vmem S64x32 .f32) (ha7 : a7.IsWhole) (a8 : Memref sig .tc .vmem S1x32 .f32) (ha8 : a8.IsWhole) (a9 : Memref sig .tc .vmem S16000x32 .f32) (ha9 : a9.IsWhole)
    (x0 : Vec F S16000x128 .f32) (x1 : Vec F S16000x32 .f32) (x2 : Vec F S128x64 .f32) (x3 : Vec F S32x64 .f32) (x4 : Vec F S1x64 .f32) (x5 : Vec F S64x64 .f32) (x6 : Vec F S1x64 .f32) (x7 : Vec F S64x32 .f32) (x8 : Vec F S1x32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (stored0 x0 x1 x2 x3 x4 x5 x6 x7 x8)) -∗ K ⟨⟩))
      ⊢ wp frame (wpE (defs₀ (F := F)) Variants.none c none) E (cc0__edge_mlp_kernel i a0 ha0 a1 ha1 a2 ha2 a3 ha3 a4 ha4 a5 ha5 a6 ha6 a7 ha7 a8 ha8 a9 ha9) K := by
  simp only [cc0__edge_mlp_kernel_eq_skeleton]; unfold cc0__edge_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (covers0 _)

/-! ## The pipeline's proof data -/

/-- Per core: the windows' arrays as the region finds them; after the body at a point each input's buffer still at its block, the
    output's at `stored0` of the input blocks; the invariant is the scoped rest and the generator register, untouched; nothing
    is owed and every share is full. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => blockAt0 V c 7 t
    | ⟨8, _⟩ => blockAt0 V c 8 t
    | ⟨9, _⟩ => stored0 (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t)
  Φ _ := Pipeline.ΦA spec0 c
  q _ := fullShare
  owed _ := 0

theorem data0_A (c : Dev nD) (w : Fin cfg0.W) : (data0 V c).A w = V c (Pipeline.arrRef spec0 w) := by
  dsimp only [data0]

theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = blockAt0 V c 2 t := by dsimp only [data0]
theorem data0_after_3 (c : Dev nD) (t : Fin cfg0.N) : (data0 V c).after 3 t = blockAt0 V c 3 t := by dsimp only [data0]
theorem data0_after_4 (c : Dev nD) (t : Fin cfg0.N) : (data0 V c).after 4 t = blockAt0 V c 4 t := by dsimp only [data0]
theorem data0_after_5 (c : Dev nD) (t : Fin cfg0.N) : (data0 V c).after 5 t = blockAt0 V c 5 t := by dsimp only [data0]
theorem data0_after_6 (c : Dev nD) (t : Fin cfg0.N) : (data0 V c).after 6 t = blockAt0 V c 6 t := by dsimp only [data0]
theorem data0_after_7 (c : Dev nD) (t : Fin cfg0.N) : (data0 V c).after 7 t = blockAt0 V c 7 t := by dsimp only [data0]
theorem data0_after_8 (c : Dev nD) (t : Fin cfg0.N) : (data0 V c).after 8 t = blockAt0 V c 8 t := by dsimp only [data0]
theorem data0_after_9 (c : Dev nD) (t : Fin cfg0.N) : (data0 V c).after 9 t = stored0 (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) := by dsimp only [data0]

theorem found0_0 (c : Dev nD) (t : Fin cfg0.N) (d) : (data0 V c).before 0 t d = blockAt0 V c 0 t :=
  found0_0_of V (data0 V c) (data0_A V c 0) (data0_after_0 V c) t d
theorem found0_1 (c : Dev nD) (t : Fin cfg0.N) (d) : (data0 V c).before 1 t d = blockAt0 V c 1 t :=
  found0_1_of V (data0 V c) (data0_A V c 1) (data0_after_1 V c) t d
theorem found0_2 (c : Dev nD) (t : Fin cfg0.N) (d) : (data0 V c).before 2 t d = blockAt0 V c 2 t :=
  found0_2_of V (data0 V c) (data0_A V c 2) (data0_after_2 V c) t d
theorem found0_3 (c : Dev nD) (t : Fin cfg0.N) (d) : (data0 V c).before 3 t d = blockAt0 V c 3 t :=
  found0_3_of V (data0 V c) (data0_A V c 3) (data0_after_3 V c) t d
theorem found0_4 (c : Dev nD) (t : Fin cfg0.N) (d) : (data0 V c).before 4 t d = blockAt0 V c 4 t :=
  found0_4_of V (data0 V c) (data0_A V c 4) (data0_after_4 V c) t d
theorem found0_5 (c : Dev nD) (t : Fin cfg0.N) (d) : (data0 V c).before 5 t d = blockAt0 V c 5 t :=
  found0_5_of V (data0 V c) (data0_A V c 5) (data0_after_5 V c) t d
theorem found0_6 (c : Dev nD) (t : Fin cfg0.N) (d) : (data0 V c).before 6 t d = blockAt0 V c 6 t :=
  found0_6_of V (data0 V c) (data0_A V c 6) (data0_after_6 V c) t d
theorem found0_7 (c : Dev nD) (t : Fin cfg0.N) (d) : (data0 V c).before 7 t d = blockAt0 V c 7 t :=
  found0_7_of V (data0 V c) (data0_A V c 7) (data0_after_7 V c) t d
theorem found0_8 (c : Dev nD) (t : Fin cfg0.N) (d) : (data0 V c).before 8 t d = blockAt0 V c 8 t :=
  found0_8_of V (data0 V c) (data0_A V c 8) (data0_after_8 V c) t d

/-! ## The body obligation at a generic point -/

/-- What the pipeline hands the body at point `t`, window by window, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d))
    ∗ (∃ d, owns (c : Thread nD τ) (st0_6 t) fullShare ((data0 V c).before 6 t d))
    ∗ (∃ d, owns (c : Thread nD τ) (st0_7 t) fullShare ((data0 V c).before 7 t d))
    ∗ (∃ d, owns (c : Thread nD τ) (st0_8 t) fullShare ((data0 V c).before 8 t d))
    ∗ (∃ d, owns (c : Thread nD τ) (st0_9 t) fullShare ((data0 V c).before 9 t d)))

/-- and what the body gives back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t)
    ∗ owns (c : Thread nD τ) (st0_6 t) fullShare ((data0 V c).after 6 t)
    ∗ owns (c : Thread nD τ) (st0_7 t) fullShare ((data0 V c).after 7 t)
    ∗ owns (c : Thread nD τ) (st0_8 t) fullShare ((data0 V c).after 8 t)
    ∗ owns (c : Thread nD τ) (st0_9 t) fullShare ((data0 V c).after 9 t))

set_option maxHeartbeats 2000000 in
/-- At any point the inputs' buffers hold their blocks, so the body's triple applies; the invariant and the core's dues pass through. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2, found0_3, found0_4, found0_5, found0_6, found0_7, found0_8]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5, data0_after_6, data0_after_7, data0_after_8, data0_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple0 c Set.univ _ _ _ _ _ _ _ _ _ _ _ _ _ _ _ _ _ _ _ _ _ (blockAt0 V c 0 t) (blockAt0 V c 1 t) (blockAt0 V c 2 t) (blockAt0 V c 3 t) (blockAt0 V c 4 t) (blockAt0 V c 5 t) (blockAt0 V c 6 t) (blockAt0 V c 7 t) (blockAt0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (data0 (F := F) V c) (defs₀ (F := F)) Variants.none () Set.univ := fun t => by
  rw [bigSep_W0, bigSep_W0]
  exact body_at0 V c t

end Cert.KernelIdeal.Regions

end
-- ==== Proof.KernelIdeal.Region1.lean ====
/-
  Region 1 of the program (the residual update) as the pipeline library sees it: the block each window hands the body at a grid
  point, the body's run on whole staging buffers (one store covering the output block, its value the body's arithmetic on the
  loaded blocks), and the per-point obligation of the pipeline. Everything is stated at the contents `V` the core's buffers hold
  when the region is entered, so that the run of the whole program can instantiate it.
-/
import proofs.«166699_j21114059227743_2_alg».proof.Proof.Gen.KernelIdeal.Launch
import proofs.«166699_j21114059227743_2_alg».proof.Proof.Gen.KernelIdeal.Skeleton
import proofs.«166699_j21114059227743_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The blocks the region reads

The region is entered with the core's buffers at some contents `V`; every lemma below is stated at that parameter. -/

variable (V : (c : Dev nD) → (b : Ref sig .tc) → Buf (Elt F) ((c : Thread nD τ).loc b))

/-- The block of window `w` at grid point `t`, cut out of the window's array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it there or
    kept it from the point before (its block index then did not move). Window 0. -/
theorem found1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- An input window's staging buffer holds the window's block at every point, whether the pipeline fetched it there or
    kept it from the point before (its block index then did not move). Window 1. -/
theorem found1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-! ## What the body stores

The body stores once, over the whole output block: the value of its arithmetic on what it loaded. -/

/-- The output block after the body, as a function of the input blocks. -/
def stored1 (x0 : Vec F S10000x64 .f32) (x1 : Vec F S32x32 .f32) : Vec F S10000x32 .f32 :=
  View.canon [⟨(Rect.unit (s := S10000x32) ![0, 0] S10000x32.size inb_S10000x32_S10000x32_0_0), k1_pay1 (View.ld x0 (Rect.unit (s := S10000x64) ![0, 0] S10000x64.size inb_S10000x64_S10000x64_0_0)) (View.ld x1 (Rect.unit (s := S32x32) ![0, 0] S32x32.size inb_S32x32_S32x32_0_0))⟩]

/-- The one store covers the output block. -/
theorem covers1 (p0 : Vec F S10000x32 .f32) (y : S10000x32.Idx) :
    ∃ pc ∈ ([⟨(Rect.unit (s := S10000x32) ![0, 0] S10000x32.size inb_S10000x32_S10000x32_0_0), p0⟩] : List (View.Piece (Elt F) S10000x32 .f32)), y ∈ pc.1.set :=
  View.cover_of_tiled [⟨(Rect.unit (s := S10000x32) ![0, 0] S10000x32.size inb_S10000x32_S10000x32_0_0), p0⟩] S10000x32.size (by rfl) y

/-! ## The body's triple -/

set_option maxHeartbeats 4000000 in
/-- Run on whole staging buffers, the inputs' holding `x·` and the output's holding anything, the body ends with the inputs'
    as they were and the output's holding `stored1` of them. -/
theorem body_triple1 (c : Dev nD) (E : Set ℕ) (i : grid1.Coords) (a0 : Memref sig .tc .vmem S10000x64 .f32) (ha0 : a0.IsWhole) (a1 : Memref sig .tc .vmem S32x32 .f32) (ha1 : a1.IsWhole) (a2 : Memref sig .tc .vmem S10000x32 .f32) (ha2 : a2.IsWhole)
    (x0 : Vec F S10000x64 .f32) (x1 : Vec F S32x32 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (stored1 x0 x1)) -∗ K ⟨⟩))
      ⊢ wp frame (wpE (defs₀ (F := F)) Variants.none c none) E (cc1__residual_kernel i a0 ha0 a1 ha1 a2 ha2) K := by
  simp only [cc1__residual_kernel_eq_skeleton]; unfold cc1__residual_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1 _)

/-! ## The pipeline's proof data -/

/-- Per core: the windows' arrays as the region finds them; after the body at a point each input's buffer still at its block, the
    output's at `stored1` of the input blocks; the invariant is the scoped rest and the generator register, untouched; nothing
    is owed and every share is full. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => stored1 (blockAt1 V c 0 t) (blockAt1 V c 1 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = stored1 (blockAt1 V c 0 t) (blockAt1 V c 1 t) := by dsimp only [data1]

theorem found1_0 (c : Dev nD) (t : Fin cfg1.N) (d) : (data1 V c).before 0 t d = blockAt1 V c 0 t :=
  found1_0_of V (data1 V c) (data1_A V c 0) (data1_after_0 V c) t d
theorem found1_1 (c : Dev nD) (t : Fin cfg1.N) (d) : (data1 V c).before 1 t d = blockAt1 V c 1 t :=
  found1_1_of V (data1 V c) (data1_A V c 1) (data1_after_1 V c) t d

/-! ## The body obligation at a generic point -/

/-- What the pipeline hands the body at point `t`, window by window, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what the body gives back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

set_option maxHeartbeats 2000000 in
/-- At any point the inputs' buffers hold their blocks, so the body's triple applies; the invariant and the core's dues pass through. -/
theorem body_at1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1]
  rw [show (data1 V c).Φ t.succ = (data1 V c).Φ t.castSucc from rfl,
    show (data1 V c).owesAt () t.succ = (data1 V c).owesAt () t.castSucc from rfl,
    data1_after_0, data1_after_1, data1_after_2]
  iintro ⟨HΦ, Ho, ⟨%d0, H0⟩, ⟨%d1, H1⟩, ⟨%d2, H2⟩⟩
  iapply (body_triple1 c Set.univ _ _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (data1 (F := F) V c) (defs₀ (F := F)) Variants.none () Set.univ := fun t => by
  rw [bigSep_W1, bigSep_W1]
  exact body_at1 V c t

end Cert.KernelIdeal.Regions

end
-- ==== Proof.KernelIdeal.Run.lean ====
/-
  The run of the whole program: host operations, the edge-network region, host operations, the residual region.
  Between two of these four items every unscoped buffer of a core holds a known value, obtained from the launch memory by folding
  the items in order: a stretch of host operations applies each operation to its operands; a region leaves every buffer as it
  found it except its output window's array, which ends holding what the write-backs of all grid points leave. The last of
  these values is read off the final state, so the run's conclusion names the final contents of every unscoped buffer: the
  arguments (no item writes them) and the result.
-/
import proofs.«166699_j21114059227743_2_alg».proof.Proof.KernelIdeal.Region0
import proofs.«166699_j21114059227743_2_alg».proof.Proof.KernelIdeal.Region1
import proofs.«166699_j21114059227743_2_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev B0 : Dev nD → Valuation τ sig (Elt F) := fun c b => m (c, b)
/-- After the first stretch of host operations: what the edge-network region is entered with. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the edge-network region: its arrays at what the pipeline leaves, every other buffer as entered. -/
def B2 (c : Dev nD) : Valuation τ sig (Elt F) :=
  Pipeline.withArrays spec0 c (B1 m c) fun w => (data0 (E1 m) c).arrAt w cfg0.N
theorem B2_arr (c : Dev nD) (w : Fin cfg0.W) :
    B2 m c (Proc.devRef .tc (Pipeline.arrRef spec0 w)) = (data0 (E1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (data0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_other m c b fun w e => hb (Finset.mem_image.mpr ⟨w, Finset.mem_univ _, e⟩)

/-- After the second stretch of host operations: what the residual region is entered with. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- After the residual region: the final contents. -/
def B4 (c : Dev nD) : Valuation τ sig (Elt F) :=
  Pipeline.withArrays spec1 c (B3 m c) fun w => (data1 (E3 m) c).arrAt w cfg1.N
theorem B4_arr (c : Dev nD) (w : Fin cfg1.W) :
    B4 m c (Proc.devRef .tc (Pipeline.arrRef spec1 w)) = (data1 (E3 m) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem left1 (c : Dev nD) (w : Fin cfg1.W) : (data1 (E3 m) c).arrAt w cfg1.N = E4 m c (Pipeline.arrRef spec1 w) :=
  (B4_arr m c w).symm
theorem kept1 (c : Dev nD) : ∀ b, b ∉ Finset.univ.image (Pipeline.arrRef spec1) → E4 m c b = E3 m c b :=
  fun b hb => B4_other m c b fun w e => hb (Finset.mem_image.mpr ⟨w, Finset.mem_univ _, e⟩)

/-! ## No item writes an argument

A host operation writes only its result buffer, which is no argument; a region changes only its output array, and an argument
that is an input window's array ends the region as it entered it. So the fold at an argument walks back to the launch memory. -/

theorem final_arg0 (c : Dev nD) : B4 m c (Proc.devRef .tc main_arg0) = m ((c : Thread nD τ).loc main_arg0) :=
  calc B4 m c (Proc.devRef .tc main_arg0)
    _ = B3 m c (Proc.devRef .tc main_arg0) := B4_other m c main_arg0 (by decide)
    _ = B2 m c (Proc.devRef .tc main_arg0) := StableHlo.after_of_writes_sub hostOps1 _ hostOps1_writes (by decide)
    _ = B1 m c (Proc.devRef .tc main_arg0) := B2_other m c main_arg0 (by decide)
    _ = B0 m c (Proc.devRef .tc main_arg0) := StableHlo.after_of_writes_sub hostOps0 _ hostOps0_writes (by decide)
    _ = m ((c : Thread nD τ).loc main_arg0) := rfl
theorem final_arg1 (c : Dev nD) : B4 m c (Proc.devRef .tc main_arg1) = m ((c : Thread nD τ).loc main_arg1) :=
  calc B4 m c (Proc.devRef .tc main_arg1)
    _ = B3 m c (Proc.devRef .tc main_arg1) := B4_other m c main_arg1 (by decide)
    _ = B2 m c (Proc.devRef .tc main_arg1) := StableHlo.after_of_writes_sub hostOps1 _ hostOps1_writes (by decide)
    _ = B1 m c (Proc.devRef .tc main_arg1) := B2_other m c main_arg1 (by decide)
    _ = B0 m c (Proc.devRef .tc main_arg1) := StableHlo.after_of_writes_sub hostOps0 _ hostOps0_writes (by decide)
    _ = m ((c : Thread nD τ).loc main_arg1) := rfl
theorem final_arg2 (c : Dev nD) : B4 m c (Proc.devRef .tc main_arg2) = m ((c : Thread nD τ).loc main_arg2) :=
  calc B4 m c (Proc.devRef .tc main_arg2)
    _ = B3 m c (Proc.devRef .tc main_arg2) := B4_other m c main_arg2 (by decide)
    _ = B2 m c (Proc.devRef .tc main_arg2) := StableHlo.after_of_writes_sub hostOps1 _ hostOps1_writes (by decide)
    _ = B1 m c (Proc.devRef .tc main_arg2) := (B2_arr m c 1).trans (((data0 (E1 m) c).arrAt_in 1 rfl _).trans (data0_A (E1 m) c 1))
    _ = B0 m c (Proc.devRef .tc main_arg2) := StableHlo.after_of_writes_sub hostOps0 _ hostOps0_writes (by decide)
    _ = m ((c : Thread nD τ).loc main_arg2) := rfl
theorem final_arg3 (c : Dev nD) : B4 m c (Proc.devRef .tc main_arg3) = m ((c : Thread nD τ).loc main_arg3) :=
  calc B4 m c (Proc.devRef .tc main_arg3)
    _ = B3 m c (Proc.devRef .tc main_arg3) := B4_other m c main_arg3 (by decide)
    _ = B2 m c (Proc.devRef .tc main_arg3) := StableHlo.after_of_writes_sub hostOps1 _ hostOps1_writes (by decide)
    _ = B1 m c (Proc.devRef .tc main_arg3) := B2_other m c main_arg3 (by decide)
    _ = B0 m c (Proc.devRef .tc main_arg3) := StableHlo.after_of_writes_sub hostOps0 _ hostOps0_writes (by decide)
    _ = m ((c : Thread nD τ).loc main_arg3) := rfl
theorem final_arg4 (c : Dev nD) : B4 m c (Proc.devRef .tc main_arg4) = m ((c : Thread nD τ).loc main_arg4) :=
  calc B4 m c (Proc.devRef .tc main_arg4)
    _ = B3 m c (Proc.devRef .tc main_arg4) := B4_other m c main_arg4 (by decide)
    _ = B2 m c (Proc.devRef .tc main_arg4) := StableHlo.after_of_writes_sub hostOps1 _ hostOps1_writes (by decide)
    _ = B1 m c (Proc.devRef .tc main_arg4) := B2_other m c main_arg4 (by decide)
    _ = B0 m c (Proc.devRef .tc main_arg4) := StableHlo.after_of_writes_sub hostOps0 _ hostOps0_writes (by decide)
    _ = m ((c : Thread nD τ).loc main_arg4) := rfl
theorem final_arg5 (c : Dev nD) : B4 m c (Proc.devRef .tc main_arg5) = m ((c : Thread nD τ).loc main_arg5) :=
  calc B4 m c (Proc.devRef .tc main_arg5)
    _ = B3 m c (Proc.devRef .tc main_arg5) := B4_other m c main_arg5 (by decide)
    _ = B2 m c (Proc.devRef .tc main_arg5) := StableHlo.after_of_writes_sub hostOps1 _ hostOps1_writes (by decide)
    _ = B1 m c (Proc.devRef .tc main_arg5) := B2_other m c main_arg5 (by decide)
    _ = B0 m c (Proc.devRef .tc main_arg5) := StableHlo.after_of_writes_sub hostOps0 _ hostOps0_writes (by decide)
    _ = m ((c : Thread nD τ).loc main_arg5) := rfl
theorem final_arg6 (c : Dev nD) : B4 m c (Proc.devRef .tc main_arg6) = m ((c : Thread nD τ).loc main_arg6) :=
  calc B4 m c (Proc.devRef .tc main_arg6)
    _ = B3 m c (Proc.devRef .tc main_arg6) := B4_other m c main_arg6 (by decide)
    _ = B2 m c (Proc.devRef .tc main_arg6) := StableHlo.after_of_writes_sub hostOps1 _ hostOps1_writes (by decide)
    _ = B1 m c (Proc.devRef .tc main_arg6) := B2_other m c main_arg6 (by decide)
    _ = B0 m c (Proc.devRef .tc main_arg6) := StableHlo.after_of_writes_sub hostOps0 _ hostOps0_writes (by decide)
    _ = m ((c : Thread nD τ).loc main_arg6) := rfl
theorem final_arg7 (c : Dev nD) : B4 m c (Proc.devRef .tc main_arg7) = m ((c : Thread nD τ).loc main_arg7) :=
  calc B4 m c (Proc.devRef .tc main_arg7)
    _ = B3 m c (Proc.devRef .tc main_arg7) := B4_other m c main_arg7 (by decide)
    _ = B2 m c (Proc.devRef .tc main_arg7) := StableHlo.after_of_writes_sub hostOps1 _ hostOps1_writes (by decide)
    _ = B1 m c (Proc.devRef .tc main_arg7) := (B2_arr m c 5).trans (((data0 (E1 m) c).arrAt_in 5 rfl _).trans (data0_A (E1 m) c 5))
    _ = B0 m c (Proc.devRef .tc main_arg7) := StableHlo.after_of_writes_sub hostOps0 _ hostOps0_writes (by decide)
    _ = m ((c : Thread nD τ).loc main_arg7) := rfl
theorem final_arg8 (c : Dev nD) : B4 m c (Proc.devRef .tc main_arg8) = m ((c : Thread nD τ).loc main_arg8) :=
  calc B4 m c (Proc.devRef .tc main_arg8)
    _ = B3 m c (Proc.devRef .tc main_arg8) := B4_other m c main_arg8 (by decide)
    _ = B2 m c (Proc.devRef .tc main_arg8) := StableHlo.after_of_writes_sub hostOps1 _ hostOps1_writes (by decide)
    _ = B1 m c (Proc.devRef .tc main_arg8) := B2_other m c main_arg8 (by decide)
    _ = B0 m c (Proc.devRef .tc main_arg8) := StableHlo.after_of_writes_sub hostOps0 _ hostOps0_writes (by decide)
    _ = m ((c : Thread nD τ).loc main_arg8) := rfl
theorem final_arg9 (c : Dev nD) : B4 m c (Proc.devRef .tc main_arg9) = m ((c : Thread nD τ).loc main_arg9) :=
  calc B4 m c (Proc.devRef .tc main_arg9)
    _ = B3 m c (Proc.devRef .tc main_arg9) := B4_other m c main_arg9 (by decide)
    _ = B2 m c (Proc.devRef .tc main_arg9) := StableHlo.after_of_writes_sub hostOps1 _ hostOps1_writes (by decide)
    _ = B1 m c (Proc.devRef .tc main_arg9) := (B2_arr m c 7).trans (((data0 (E1 m) c).arrAt_in 7 rfl _).trans (data0_A (E1 m) c 7))
    _ = B0 m c (Proc.devRef .tc main_arg9) := StableHlo.after_of_writes_sub hostOps0 _ hostOps0_writes (by decide)
    _ = m ((c : Thread nD τ).loc main_arg9) := rfl
theorem final_arg10 (c : Dev nD) : B4 m c (Proc.devRef .tc main_arg10) = m ((c : Thread nD τ).loc main_arg10) :=
  calc B4 m c (Proc.devRef .tc main_arg10)
    _ = B3 m c (Proc.devRef .tc main_arg10) := B4_other m c main_arg10 (by decide)
    _ = B2 m c (Proc.devRef .tc main_arg10) := StableHlo.after_of_writes_sub hostOps1 _ hostOps1_writes (by decide)
    _ = B1 m c (Proc.devRef .tc main_arg10) := B2_other m c main_arg10 (by decide)
    _ = B0 m c (Proc.devRef .tc main_arg10) := StableHlo.after_of_writes_sub hostOps0 _ hostOps0_writes (by decide)
    _ = m ((c : Thread nD τ).loc main_arg10) := rfl
theorem final_arg11 (c : Dev nD) : B4 m c (Proc.devRef .tc main_arg11) = m ((c : Thread nD τ).loc main_arg11) :=
  calc B4 m c (Proc.devRef .tc main_arg11)
    _ = B3 m c (Proc.devRef .tc main_arg11) := (B4_arr m c 1).trans (((data1 (E3 m) c).arrAt_in 1 rfl _).trans (data1_A (E3 m) c 1))
    _ = B2 m c (Proc.devRef .tc main_arg11) := StableHlo.after_of_writes_sub hostOps1 _ hostOps1_writes (by decide)
    _ = B1 m c (Proc.devRef .tc main_arg11) := B2_other m c main_arg11 (by decide)
    _ = B0 m c (Proc.devRef .tc main_arg11) := StableHlo.after_of_writes_sub hostOps0 _ hostOps0_writes (by decide)
    _ = m ((c : Thread nD τ).loc main_arg11) := rfl

/-- The result buffer ends holding what the residual region's write-backs leave in its output array. -/
theorem final_result (c : Dev nD) : B4 m c (Proc.devRef .tc main_v39) = (data1 (E3 m) c).arrAt 2 cfg1.N :=
  B4_arr m c 2

/-! ## The proof data of both pipelines, and the thread state between items -/

/-- Each pipeline's proof data at its region's entry contents. -/
def pdata : (p : Fin 2) → (c : Dev nD) → Dat τ (Elt F) Unit ℕ (UR sig nD τ) ℕ (Pipeline.pin (pcfgs (F := F)) adm p) c
  | ⟨0, _⟩ => fun c => data0 (E1 m) c
  | ⟨1, _⟩ => fun c => data1 (E3 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, and the core owing nothing. -/
abbrev beside (c : Dev nD) : sProp 𝕄 := iprop((∃ r, prngReg c r) ∗ ∃ W, owes (c : Thread nD τ) (0 : CellTallies nD τ sig Unit) W)
/-- A stretch of host operations as a segment, from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B beside
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at its final contents, the generator register at some state. -/
abbrev lastState (c : Dev nD) : sProp 𝕄 := iprop(StableHlo.held (c : Thread nD τ) (Pipeline.ucRefs τ sig) (B4 m c) ∗ ∃ r, prngReg c r)

/-! ## The regions as segments

A region is entered from "every unscoped buffer at the boundary's contents": its windows' arrays are split out of those buffers and
put back, at the contents the pipeline leaves, when it ends; the generator register goes into the pipeline's invariant and comes back;
nothing is owed; the kernel has no semaphore of its own. -/

set_option backward.isDefEq.respectTransparency.types false in
def region0 : Pipeline.RegionSeg (pcfgs (F := F)) adm (pdata m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (B1 m c) ∗ beside c)
  post c := iprop(StableHlo.held (c : Thread nD τ) (Pipeline.ucRefs τ sig) (B2 m c) ∗ beside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdata m) launch0.win launch0.arr_whole c
      ((pdata m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdata m) ((pdata m 0 c).share_full fun _ => rfl)
      (E1 m c) (E2 m c) ((pdata m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdata m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (B3 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdata m) launch1.win launch1.arr_whole c
      ((pdata m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdata m) ((pdata m 1 c).share_full fun _ => rfl)
      (E3 m c) (E4 m c) ((pdata m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the launch -/

abbrev segments : List (Pipeline.Seg (pcfgs (F := F)) adm (pdata m) () defs₀ noVariants noPairs noLevel) :=
  [ .host (stretch hostOps0 hostOps0_sub hostOps0_fresh (B0 m)),
    .region (region0 m),
    .host (stretch hostOps1 hostOps1_sub hostOps1_fresh (B2 m)),
    .region (region1 m) ]
theorem main_is_segments (c : Dev nD) : main (F := F) c = Pipeline.Seg.run (segments m) := (main_chain c).trans (by chain_rfl)

set_option backward.isDefEq.respectTransparency.types false in
/-- From any memory with zero counters every weakly fair execution of the program terminates without a fault, and in the final
    state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdata m) () cellOf_inj emb₁ defs₀ noVariants noPairs noLevel m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ beside c)) (Tₙ := lastState m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (unscoped_mem main_arg0 (by decide))).trans (final_arg0 m c),
    (h c _ (unscoped_mem main_arg1 (by decide))).trans (final_arg1 m c),
    (h c _ (unscoped_mem main_arg2 (by decide))).trans (final_arg2 m c),
    (h c _ (unscoped_mem main_arg3 (by decide))).trans (final_arg3 m c),
    (h c _ (unscoped_mem main_arg4 (by decide))).trans (final_arg4 m c),
    (h c _ (unscoped_mem main_arg5 (by decide))).trans (final_arg5 m c),
    (h c _ (unscoped_mem main_arg6 (by decide))).trans (final_arg6 m c),
    (h c _ (unscoped_mem main_arg7 (by decide))).trans (final_arg7 m c),
    (h c _ (unscoped_mem main_arg8 (by decide))).trans (final_arg8 m c),
    (h c _ (unscoped_mem main_arg9 (by decide))).trans (final_arg9 m c),
    (h c _ (unscoped_mem main_arg10 (by decide))).trans (final_arg10 m c),
    (h c _ (unscoped_mem main_arg11 (by decide))).trans (final_arg11 m c)⟩) (run_all m ρ)

/-- The value: the result buffer ends holding what the residual region's write-backs leave, and the arguments end as launched. -/
theorem run_value : θ_run defs (onTc (τ := τ) (main (F := F))) ⟨m, fun _ => 0, ρ⟩ (fun r => ∀ c : Dev nD,
      r.2.mem ((c.tc : Thread nD τ).loc main_v39) = (data1 (E3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (unscoped_mem main_v39 (by decide))).trans (final_result m c),
    (h c _ (unscoped_mem main_arg0 (by decide))).trans (final_arg0 m c),
    (h c _ (unscoped_mem main_arg1 (by decide))).trans (final_arg1 m c),
    (h c _ (unscoped_mem main_arg2 (by decide))).trans (final_arg2 m c),
    (h c _ (unscoped_mem main_arg3 (by decide))).trans (final_arg3 m c),
    (h c _ (unscoped_mem main_arg4 (by decide))).trans (final_arg4 m c),
    (h c _ (unscoped_mem main_arg5 (by decide))).trans (final_arg5 m c),
    (h c _ (unscoped_mem main_arg6 (by decide))).trans (final_arg6 m c),
    (h c _ (unscoped_mem main_arg7 (by decide))).trans (final_arg7 m c),
    (h c _ (unscoped_mem main_arg8 (by decide))).trans (final_arg8 m c),
    (h c _ (unscoped_mem main_arg9 (by decide))).trans (final_arg9 m c),
    (h c _ (unscoped_mem main_arg10 (by decide))).trans (final_arg10 m c),
    (h c _ (unscoped_mem main_arg11 (by decide))).trans (final_arg11 m c)⟩) (run_all m ρ)

end Cert.KernelIdeal.Regions

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«166699_j21114059227743_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«166699_j21114059227743_2_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«166699_j21114059227743_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.EdgeMath.lean ====
/-
  The mathematics of the message-passing step, free of any program.

  One edge carries a row of 160 features: the 128 gathered node features `xc` beside the 32 edge features `xe`. Three dense layers,
  each followed by a rectifier, map the row to 32 numbers, and the edge's message is their product, entry by entry, with the
  difference of two 32-wide pieces of `xc` (its last quarter less its third quarter): `msgRow`. A node's new features are its old
  ones plus the aggregated messages times a square matrix: `resRow`.

  The kernel computes the first layer as two partial products, over the first 128 and the last 32 features, and adds them; the
  host contracts all 160 at once. The two agree because a sum over 160 terms is the sum over its first 128 plus the sum over its
  last 32 (`sum_cat`) — a regrouping of a finite sum, valid for extended reals without any finiteness assumption. Everything else
  is the same operation on both sides, read at an index through the dense-layer lemmas of the imported modules.
-/
import proofs.«166699_j21114059227743_2_alg».proof.Proof.LibDenseStep
import proofs.«166699_j21114059227743_2_alg».proof.Proof.LibPlainDot

noncomputable section

open scoped BigOperators

namespace Cert.EdgeMath

open Idealize.ShloMosaic Idealize.ShloMosaic.ValueIdx Cert.DenseRow Cert.RowBias Cert.DenseStep

/-! ## The specification, on one row -/

/-- Three dense layers, a rectifier after each, on a row of 160 features. -/
def netRow (x : Fin 160 → EReal) (W0 : Fin 160 → Fin 64 → EReal) (B0 : Fin 64 → EReal) (W1 : Fin 64 → Fin 64 → EReal)
    (B1 : Fin 64 → EReal) (W2 : Fin 64 → Fin 32 → EReal) (B2 : Fin 32 → EReal) : Fin 32 → EReal :=
  act zf (layer (act zf (layer (act zf (layer x W0 B0)) W1 B1)) W2 B2)

/-- One edge's message: the network's output on the joined row times the difference of the last two quarters of `xc`. -/
def msgRow (xc : Fin 128 → EReal) (xe : Fin 32 → EReal) (W0 : Fin 160 → Fin 64 → EReal) (B0 : Fin 64 → EReal)
    (W1 : Fin 64 → Fin 64 → EReal) (B1 : Fin 64 → EReal) (W2 : Fin 64 → Fin 32 → EReal) (B2 : Fin 32 → EReal) (j : Fin 32) : EReal :=
  netRow (cat (A := 128) (B := 32) (C := 160) rfl xc xe) W0 B0 W1 B1 W2 B2 j
    * (xc ⟨96 + j.val, by have := j.isLt; omega⟩ - xc ⟨64 + j.val, by have := j.isLt; omega⟩)

/-- One node's update: its old features plus its aggregated messages times the matrix. -/
def resRow (h g : Fin 32 → EReal) (W : Fin 32 → Fin 32 → EReal) (j : Fin 32) : EReal := h j + ∑ k : Fin 32, g k * W k j

/-! ## The specification, on whole arrays -/

/-- Every edge's message, from the array of gathered node features, the array of edge features and the parameters. -/
def msgArr {E : ℕ} (C4 : (⟨2, ![E, 128]⟩ : Shape).Idx → EReal) (EF : (⟨2, ![E, 32]⟩ : Shape).Idx → EReal)
    (w0 : (⟨2, ![160, 64]⟩ : Shape).Idx → EReal) (b0 : (⟨1, ![64]⟩ : Shape).Idx → EReal)
    (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal) : (⟨2, ![E, 32]⟩ : Shape).Idx → EReal :=
  fun i => msgRow (fun k => C4 (ix2 (idxEquiv2 (n0 := E) (n1 := 32) i).1 k)) (fun k => EF (ix2 (idxEquiv2 (n0 := E) (n1 := 32) i).1 k))
    (fun k j => w0 (ix2 k j)) (fun j => b0 (ix1 j)) (fun k j => w1 (ix2 k j)) (fun j => b1 (ix1 j)) (fun k j => w2 (ix2 k j))
    (fun j => b2 (ix1 j)) (idxEquiv2 (n0 := E) (n1 := 32) i).2

theorem msgArr_apply {E : ℕ} (C4 : (⟨2, ![E, 128]⟩ : Shape).Idx → EReal) (EF : (⟨2, ![E, 32]⟩ : Shape).Idx → EReal)
    (w0 : (⟨2, ![160, 64]⟩ : Shape).Idx → EReal) (b0 : (⟨1, ![64]⟩ : Shape).Idx → EReal)
    (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal) (e : Fin E) (j : Fin 32) :
    msgArr C4 EF w0 b0 w1 b1 w2 b2 (ix2 e j)
      = msgRow (fun k => C4 (ix2 e k)) (fun k => EF (ix2 e k)) (fun k j => w0 (ix2 k j)) (fun j => b0 (ix1 j))
          (fun k j => w1 (ix2 k j)) (fun j => b1 (ix1 j)) (fun k j => w2 (ix2 k j)) (fun j => b2 (ix1 j)) j := rfl

/-- Every node's update. -/
def resArr {N : ℕ} (A0 AGG : (⟨2, ![N, 32]⟩ : Shape).Idx → EReal) (W : (⟨2, ![32, 32]⟩ : Shape).Idx → EReal) :
    (⟨2, ![N, 32]⟩ : Shape).Idx → EReal :=
  fun i => resRow (fun j => A0 (ix2 (idxEquiv2 (n0 := N) (n1 := 32) i).1 j)) (fun k => AGG (ix2 (idxEquiv2 (n0 := N) (n1 := 32) i).1 k))
    (fun k j => W (ix2 k j)) (idxEquiv2 (n0 := N) (n1 := 32) i).2

theorem resArr_apply {N : ℕ} (A0 AGG : (⟨2, ![N, 32]⟩ : Shape).Idx → EReal) (W : (⟨2, ![32, 32]⟩ : Shape).Idx → EReal)
    (n : Fin N) (j : Fin 32) :
    resArr A0 AGG W (ix2 n j) = resRow (fun j => A0 (ix2 n j)) (fun k => AGG (ix2 n k)) (fun k j => W (ix2 k j)) j := rfl

/-! ## A sum over a joined row splits -/

/-- The contraction of a joined row with a weight column is the contraction of its first part with the column's first entries plus
    that of its second part with the rest: a finite sum regrouped. -/
theorem sum_cat {A B C : ℕ} (hC : C = A + B) (x : Fin A → EReal) (y : Fin B → EReal) (w : Fin C → EReal) :
    ∑ k : Fin C, cat hC x y k * w k
      = (∑ k : Fin A, x k * w ⟨k.val, by have := k.isLt; omega⟩) + ∑ k : Fin B, y k * w ⟨A + k.val, by have := k.isLt; omega⟩ := by
  subst hC
  rw [Fin.sum_univ_add]
  refine congrArg₂ (· + ·) (Finset.sum_congr rfl fun k _ => ?_) (Finset.sum_congr rfl fun k _ => ?_)
  · have hk : (Fin.castAdd B k).val < A := by simp
    unfold cat
    rw [dif_pos hk]
    rfl
  · have hk : ¬ (Fin.natAdd A k).val < A := by simp
    unfold cat
    rw [dif_neg hk]
    refine congrArg₂ (· * ·) (congrArg y (Fin.ext ?_)) rfl
    simp

/-- An entry of the first part of a joined row. -/
theorem cat_left {A B C : ℕ} (hC : C = A + B) (x : Fin A → EReal) (y : Fin B → EReal) (k : Fin C) (hk : k.val < A) :
    cat hC x y k = x ⟨k.val, hk⟩ := by
  unfold cat; rw [dif_pos hk]

/-- An entry of the second part. -/
theorem cat_right {A B C : ℕ} (hC : C = A + B) (x : Fin A → EReal) (y : Fin B → EReal) (k : Fin C) (hk : ¬ k.val < A) :
    cat hC x y k = y ⟨k.val - A, by have := k.isLt; omega⟩ := by
  unfold cat; rw [dif_neg hk]

/-! ## The kernel's spelling of the edge network, on a block of rows -/

/-- The first layer as the kernel computes it: two partial products into zero accumulators, added, plus the one-row bias, then
    the rectifier. At row `p` it is the dense layer of the joined row with the whole weight, whose first 128 rows are the first
    product's weight and whose last 32 the second's. -/
theorem klayer0_row {R : ℕ} (a1 : FVec Ideal ⟨2, ![R, 128]⟩ .f32) (w1 : FVec Ideal ⟨2, ![128, 64]⟩ .f32)
    (a2 : FVec Ideal ⟨2, ![R, 32]⟩ .f32) (w2 : FVec Ideal ⟨2, ![32, 64]⟩ .f32) (v : FVec Ideal ⟨2, ![1, 64]⟩ .f32)
    (hc : (⟨2, ![1, 64]⟩ : Shape).ShapeCasts ⟨2, ![1, 64]⟩) (hb : (⟨2, ![1, 64]⟩ : Shape).Broadcasts ⟨2, ![R, 64]⟩)
    (p : Fin R) (xc : Fin 128 → EReal) (h1 : ∀ k, a1 (ix2 p k) = xc k) (xe : Fin 32 → EReal) (h2 : ∀ k, a2 (ix2 p k) = xe k)
    (W0 : Fin 160 → Fin 64 → EReal) (ht : ∀ (k : Fin 128) (j : Fin 64), w1 (ix2 k j) = W0 ⟨k.val, by have := k.isLt; omega⟩ j)
    (hbt : ∀ (k : Fin 32) (j : Fin 64), w2 (ix2 k j) = W0 ⟨128 + k.val, by have := k.isLt; omega⟩ j) (c : Fin 64) :
    maximumf (addf (addf (matmul (DotDims.plain R 128 64) none a1 w1 (constant ⟨2, ![R, 64]⟩ .f32 0x00000000#32))
                         (matmul (DotDims.plain R 32 64) none a2 w2 (constant ⟨2, ![R, 64]⟩ .f32 0x00000000#32)))
                   (broadcastTo ⟨2, ![R, 64]⟩ (shapeCast ⟨2, ![1, 64]⟩ v hc) hb))
        (broadcast ⟨2, ![R, 64]⟩ (Scalar.ofBits (F := Ideal) .f32 0x00000000#32)) (ix2 p c)
      = act zf (layer (cat (A := 128) (B := 32) (C := 160) rfl xc xe) W0 (fun j => v (ix2 (0 : Fin 1) j))) c := by
  refine congrArg (fun y => max y zf) ?_
  show (matmul (DotDims.plain R 128 64) none a1 w1 (constant ⟨2, ![R, 64]⟩ .f32 0x00000000#32) (ix2 p c)
      + matmul (DotDims.plain R 32 64) none a2 w2 (constant ⟨2, ![R, 64]⟩ .f32 0x00000000#32) (ix2 p c))
      + broadcastTo ⟨2, ![R, 64]⟩ (shapeCast ⟨2, ![1, 64]⟩ v hc) hb (ix2 p c) = _
  rw [kmm_row (DotDims.plain R 128 64) rfl rfl (Cert.PlainDot.lhs_at R 128 64) (Cert.PlainDot.rhs_at R 128 64) a1 w1 p xc h1
        (fun k j => W0 ⟨k.val, by have := k.isLt; omega⟩ j) ht c,
    kmm_row (DotDims.plain R 32 64) rfl rfl (Cert.PlainDot.lhs_at R 32 64) (Cert.PlainDot.rhs_at R 32 64) a2 w2 p xe h2
        (fun k j => W0 ⟨128 + k.val, by have := k.isLt; omega⟩ j) hbt c,
    kbias_row v hc hb p c]
  unfold layer
  rw [sum_cat (A := 128) (B := 32) (C := 160) rfl xc xe (fun k => W0 k c)]

/-- The kernel's whole chain on a block of `R` rows, at row `p` and column `j`, is the message of the row. -/
theorem kmsg_row {R : ℕ}
    (x0 : FVec Ideal ⟨2, ![R, 128]⟩ .f32) (x1 : FVec Ideal ⟨2, ![R, 32]⟩ .f32) (x2 : FVec Ideal ⟨2, ![128, 64]⟩ .f32)
    (x3 : FVec Ideal ⟨2, ![32, 64]⟩ .f32) (x4 : FVec Ideal ⟨2, ![1, 64]⟩ .f32) (x5 : FVec Ideal ⟨2, ![64, 64]⟩ .f32)
    (x6 : FVec Ideal ⟨2, ![1, 64]⟩ .f32) (x7 : FVec Ideal ⟨2, ![64, 32]⟩ .f32) (x8 : FVec Ideal ⟨2, ![1, 32]⟩ .f32)
    (c0 : (⟨2, ![R, 128]⟩ : Shape).ShapeCasts ⟨2, ![R, 128]⟩) (c2 : (⟨2, ![128, 64]⟩ : Shape).ShapeCasts ⟨2, ![128, 64]⟩)
    (c3 : (⟨2, ![32, 64]⟩ : Shape).ShapeCasts ⟨2, ![32, 64]⟩) (c4 : (⟨2, ![1, 64]⟩ : Shape).ShapeCasts ⟨2, ![1, 64]⟩)
    (c8 : (⟨2, ![1, 32]⟩ : Shape).ShapeCasts ⟨2, ![1, 32]⟩)
    (b64 : (⟨2, ![1, 64]⟩ : Shape).Broadcasts ⟨2, ![R, 64]⟩) (b32 : (⟨2, ![1, 32]⟩ : Shape).Broadcasts ⟨2, ![R, 32]⟩)
    (s64 : (⟨2, ![R, 128]⟩ : Shape).Slices ![0, 64] ⟨2, ![R, 32]⟩) (s96 : (⟨2, ![R, 128]⟩ : Shape).Slices ![0, 96] ⟨2, ![R, 32]⟩)
    (p : Fin R) (xc : Fin 128 → EReal) (h0 : ∀ k, x0 (ix2 p k) = xc k) (xe : Fin 32 → EReal) (h1 : ∀ k, x1 (ix2 p k) = xe k)
    (W0 : Fin 160 → Fin 64 → EReal) (h2 : ∀ (k : Fin 128) (j : Fin 64), x2 (ix2 k j) = W0 ⟨k.val, by have := k.isLt; omega⟩ j)
    (h3 : ∀ (k : Fin 32) (j : Fin 64), x3 (ix2 k j) = W0 ⟨128 + k.val, by have := k.isLt; omega⟩ j) (j : Fin 32) :
    mulf
      (maximumf (addf (matmul (DotDims.plain R 64 32) none
          (maximumf (addf (matmul (DotDims.plain R 64 64) none
              (maximumf (addf (addf
                  (matmul (DotDims.plain R 128 64) none (shapeCast ⟨2, ![R, 128]⟩ x0 c0) (shapeCast ⟨2, ![128, 64]⟩ x2 c2) (constant ⟨2, ![R, 64]⟩ .f32 0x00000000#32))
                  (matmul (DotDims.plain R 32 64) none x1 (shapeCast ⟨2, ![32, 64]⟩ x3 c3) (constant ⟨2, ![R, 64]⟩ .f32 0x00000000#32)))
                  (broadcastTo ⟨2, ![R, 64]⟩ (shapeCast ⟨2, ![1, 64]⟩ x4 c4) b64))
                (broadcast ⟨2, ![R, 64]⟩ (Scalar.ofBits (F := Ideal) .f32 0x00000000#32)))
              x5 (constant ⟨2, ![R, 64]⟩ .f32 0x00000000#32))
            (broadcastTo ⟨2, ![R, 64]⟩ (shapeCast ⟨2, ![1, 64]⟩ x6 c4) b64))
            (broadcast ⟨2, ![R, 64]⟩ (Scalar.ofBits (F := Ideal) .f32 0x00000000#32)))
          x7 (constant ⟨2, ![R, 32]⟩ .f32 0x00000000#32))
        (broadcastTo ⟨2, ![R, 32]⟩ (shapeCast ⟨2, ![1, 32]⟩ x8 c8) b32))
        (broadcast ⟨2, ![R, 32]⟩ (Scalar.ofBits (F := Ideal) .f32 0x00000000#32)))
      (subf (extractStridedSlice ⟨2, ![R, 32]⟩ ![0, 96] (shapeCast ⟨2, ![R, 128]⟩ x0 c0) s96)
            (extractStridedSlice ⟨2, ![R, 32]⟩ ![0, 64] (shapeCast ⟨2, ![R, 128]⟩ x0 c0) s64)) (ix2 p j)
      = msgRow xc xe W0 (fun j => x4 (ix2 (0 : Fin 1) j)) (fun k j => x5 (ix2 k j)) (fun j => x6 (ix2 (0 : Fin 1) j))
          (fun k j => x7 (ix2 k j)) (fun j => x8 (ix2 (0 : Fin 1) j)) j := by
  have hc0 : ∀ k, shapeCast ⟨2, ![R, 128]⟩ x0 c0 (ix2 p k) = xc k := fun k => (self_cast x0 c0 p k).trans (h0 k)
  unfold msgRow netRow
  refine congrArg₂ (fun a b : EReal => a * b) ?_ (congrArg₂ (fun a b : EReal => a - b) ?_ ?_)
  · exact klayer_relu_row (DotDims.plain R 64 32) rfl rfl (Cert.PlainDot.lhs_at R 64 32) (Cert.PlainDot.rhs_at R 64 32) _ x7 p _
      (fun k => klayer_relu_row (DotDims.plain R 64 64) rfl rfl (Cert.PlainDot.lhs_at R 64 64) (Cert.PlainDot.rhs_at R 64 64) _ x5 p _
        (fun k' => klayer0_row (shapeCast ⟨2, ![R, 128]⟩ x0 c0) (shapeCast ⟨2, ![128, 64]⟩ x2 c2) x1 (shapeCast ⟨2, ![32, 64]⟩ x3 c3) x4 c4 b64 p
          xc hc0 xe h1 W0 (fun k j => (self_cast x2 c2 k j).trans (h2 k j)) (fun k j => (self_cast x3 c3 k j).trans (h3 k j)) k')
        (fun k j => x5 (ix2 k j)) (fun _ _ => rfl) x6 c4 b64 k)
      (fun k j => x7 (ix2 k j)) (fun _ _ => rfl) x8 c8 b32 j
  · refine (extractStridedSlice_apply ![0, 96] (shapeCast ⟨2, ![R, 128]⟩ x0 c0) s96 (ix2 p j)
      (ix2 p ⟨96 + j.val, by have := j.isLt; omega⟩) fun a => ?_).trans (hc0 _)
    match a with
    | ⟨0, _⟩ => exact (Nat.zero_add _).symm
    | ⟨1, _⟩ => rfl
  · refine (extractStridedSlice_apply ![0, 64] (shapeCast ⟨2, ![R, 128]⟩ x0 c0) s64 (ix2 p j)
      (ix2 p ⟨64 + j.val, by have := j.isLt; omega⟩) fun a => ?_).trans (hc0 _)
    match a with
    | ⟨0, _⟩ => exact (Nat.zero_add _).symm
    | ⟨1, _⟩ => rfl

/-! ## The host's spelling of the edge network -/

/-- The host's three `dot_general`s, each with its bias broadcast over the rows and its rectifier, at row `p`: the network of the row. -/
theorem hnet_row {R : ℕ} (X : FVec Ideal ⟨2, ![R, 160]⟩ .f32) (w0 : FVec Ideal ⟨2, ![160, 64]⟩ .f32) (b0 : FVec Ideal ⟨1, ![64]⟩ .f32)
    (w1 : FVec Ideal ⟨2, ![64, 64]⟩ .f32) (b1 : FVec Ideal ⟨1, ![64]⟩ .f32) (w2 : FVec Ideal ⟨2, ![64, 32]⟩ .f32) (b2 : FVec Ideal ⟨1, ![32]⟩ .f32)
    (u64 : (⟨1, ![64]⟩ : Shape).BroadcastsInDim ⟨2, ![1, 64]⟩ ![1]) (r64 : (⟨2, ![1, 64]⟩ : Shape).BroadcastsInDim ⟨2, ![R, 64]⟩ ![0, 1])
    (z64 : (⟨0, ![]⟩ : Shape).BroadcastsInDim ⟨2, ![R, 64]⟩ ![])
    (u32 : (⟨1, ![32]⟩ : Shape).BroadcastsInDim ⟨2, ![1, 32]⟩ ![1]) (r32 : (⟨2, ![1, 32]⟩ : Shape).BroadcastsInDim ⟨2, ![R, 32]⟩ ![0, 1])
    (z32 : (⟨0, ![]⟩ : Shape).BroadcastsInDim ⟨2, ![R, 32]⟩ ![])
    (p : Fin R) (x : Fin 160 → EReal) (hx : ∀ k, X (ix2 p k) = x k) (j : Fin 32) :
    maximumf (addf (Host.dotGeneral (DotDims.plain R 64 32) none
        (maximumf (addf (Host.dotGeneral (DotDims.plain R 64 64) none
            (maximumf (addf (Host.dotGeneral (DotDims.plain R 160 64) none X w0)
                (broadcastInDim ⟨2, ![R, 64]⟩ ![0, 1] r64 (broadcastInDim ⟨2, ![1, 64]⟩ ![1] u64 b0)))
              (broadcastInDim ⟨2, ![R, 64]⟩ ![] z64 (constant (F := Ideal) ⟨0, ![]⟩ .f32 0x00000000#32)))
            w1)
            (broadcastInDim ⟨2, ![R, 64]⟩ ![0, 1] r64 (broadcastInDim ⟨2, ![1, 64]⟩ ![1] u64 b1)))
          (broadcastInDim ⟨2, ![R, 64]⟩ ![] z64 (constant (F := Ideal) ⟨0, ![]⟩ .f32 0x00000000#32)))
        w2)
        (broadcastInDim ⟨2, ![R, 32]⟩ ![0, 1] r32 (broadcastInDim ⟨2, ![1, 32]⟩ ![1] u32 b2)))
      (broadcastInDim ⟨2, ![R, 32]⟩ ![] z32 (constant (F := Ideal) ⟨0, ![]⟩ .f32 0x00000000#32)) (ix2 p j)
      = netRow x (fun k j => w0 (ix2 k j)) (fun j => b0 (ix1 j)) (fun k j => w1 (ix2 k j)) (fun j => b1 (ix1 j))
          (fun k j => w2 (ix2 k j)) (fun j => b2 (ix1 j)) j :=
  hlayer_relu_row (DotDims.plain R 64 32) rfl rfl (Cert.PlainDot.lhs_at R 64 32) (Cert.PlainDot.rhs_at R 64 32) _ w2 p _
    (fun k => hlayer_relu_row (DotDims.plain R 64 64) rfl rfl (Cert.PlainDot.lhs_at R 64 64) (Cert.PlainDot.rhs_at R 64 64) _ w1 p _
      (fun k' => hlayer_relu_row (DotDims.plain R 160 64) rfl rfl (Cert.PlainDot.lhs_at R 160 64) (Cert.PlainDot.rhs_at R 160 64) X w0 p x hx
        b0 u64 r64 z64 k') b1 u64 r64 z64 k) b2 u32 r32 z32 j

/-! ## The node update in both spellings -/

/-- The first 32 columns of a packed row of 64, cut out by a unit-stride slice at offset 0. -/
theorem slice_lo {R : ℕ} (x0 : FVec Ideal ⟨2, ![R, 64]⟩ .f32) (c0 : (⟨2, ![R, 64]⟩ : Shape).ShapeCasts ⟨2, ![R, 64]⟩)
    (s0 : (⟨2, ![R, 64]⟩ : Shape).Slices ![0, 0] ⟨2, ![R, 32]⟩) (p : Fin R) (j : Fin 32) :
    extractStridedSlice ⟨2, ![R, 32]⟩ ![0, 0] (shapeCast ⟨2, ![R, 64]⟩ x0 c0) s0 (ix2 p j)
      = x0 (ix2 p ⟨j.val, by have := j.isLt; omega⟩) := by
  have hk : ∀ a : Fin (⟨2, ![R, 64]⟩ : Shape).rank,
      ((ix2 p (⟨j.val, by have := j.isLt; omega⟩ : Fin 64) : (⟨2, ![R, 64]⟩ : Shape).Idx) a).val
        = (![0, 0] : Fin 2 → ℕ) a + ((ix2 p j : (⟨2, ![R, 32]⟩ : Shape).Idx) (a.cast s0.1.symm)).val := fun a => by
    match a with
    | ⟨0, _⟩ => exact (Nat.zero_add _).symm
    | ⟨1, _⟩ => exact (Nat.zero_add _).symm
  exact (extractStridedSlice_apply _ _ s0 _ _ hk).trans (self_cast x0 c0 p _)

/-- Its last 32 columns, cut out at offset 32. -/
theorem slice_hi {R : ℕ} (x0 : FVec Ideal ⟨2, ![R, 64]⟩ .f32) (c0 : (⟨2, ![R, 64]⟩ : Shape).ShapeCasts ⟨2, ![R, 64]⟩)
    (s32 : (⟨2, ![R, 64]⟩ : Shape).Slices ![0, 32] ⟨2, ![R, 32]⟩) (p : Fin R) (k : Fin 32) :
    extractStridedSlice ⟨2, ![R, 32]⟩ ![0, 32] (shapeCast ⟨2, ![R, 64]⟩ x0 c0) s32 (ix2 p k)
      = x0 (ix2 p ⟨32 + k.val, by have := k.isLt; omega⟩) := by
  have hk : ∀ a : Fin (⟨2, ![R, 64]⟩ : Shape).rank,
      ((ix2 p (⟨32 + k.val, by have := k.isLt; omega⟩ : Fin 64) : (⟨2, ![R, 64]⟩ : Shape).Idx) a).val
        = (![0, 32] : Fin 2 → ℕ) a + ((ix2 p k : (⟨2, ![R, 32]⟩ : Shape).Idx) (a.cast s32.1.symm)).val := fun a => by
    match a with
    | ⟨0, _⟩ => exact (Nat.zero_add _).symm
    | ⟨1, _⟩ => rfl
  exact (extractStridedSlice_apply _ _ s32 _ _ hk).trans (self_cast x0 c0 p _)

/-- The kernel's update on a block of rows: the first 32 columns of the packed row plus the product of its last 32 with the matrix. -/
theorem kres_row {R : ℕ} (x0 : FVec Ideal ⟨2, ![R, 64]⟩ .f32) (x1 : FVec Ideal ⟨2, ![32, 32]⟩ .f32)
    (c0 : (⟨2, ![R, 64]⟩ : Shape).ShapeCasts ⟨2, ![R, 64]⟩)
    (s0 : (⟨2, ![R, 64]⟩ : Shape).Slices ![0, 0] ⟨2, ![R, 32]⟩) (s32 : (⟨2, ![R, 64]⟩ : Shape).Slices ![0, 32] ⟨2, ![R, 32]⟩)
    (p : Fin R) (h g : Fin 32 → EReal) (hh : ∀ k : Fin 32, x0 (ix2 p ⟨k.val, by have := k.isLt; omega⟩) = h k)
    (hg : ∀ k : Fin 32, x0 (ix2 p ⟨32 + k.val, by have := k.isLt; omega⟩) = g k) (j : Fin 32) :
    addf (extractStridedSlice ⟨2, ![R, 32]⟩ ![0, 0] (shapeCast ⟨2, ![R, 64]⟩ x0 c0) s0)
        (matmul (DotDims.plain R 32 32) none (extractStridedSlice ⟨2, ![R, 32]⟩ ![0, 32] (shapeCast ⟨2, ![R, 64]⟩ x0 c0) s32) x1
          (constant ⟨2, ![R, 32]⟩ .f32 0x00000000#32)) (ix2 p j)
      = resRow h g (fun k j => x1 (ix2 k j)) j := by
  unfold resRow
  show extractStridedSlice ⟨2, ![R, 32]⟩ ![0, 0] (shapeCast ⟨2, ![R, 64]⟩ x0 c0) s0 (ix2 p j)
      + matmul (DotDims.plain R 32 32) none (extractStridedSlice ⟨2, ![R, 32]⟩ ![0, 32] (shapeCast ⟨2, ![R, 64]⟩ x0 c0) s32) x1
          (constant ⟨2, ![R, 32]⟩ .f32 0x00000000#32) (ix2 p j) = _
  rw [slice_lo x0 c0 s0 p j, hh j,
    kmm_row (DotDims.plain R 32 32) rfl rfl (Cert.PlainDot.lhs_at R 32 32) (Cert.PlainDot.rhs_at R 32 32) _ x1 p g
      (fun k => (slice_hi x0 c0 s32 p k).trans (hg k)) (fun k j => x1 (ix2 k j)) (fun _ _ => rfl) j]

/-- The host's update, as a whole array. -/
theorem hres {N : ℕ} (A0 AGG : FVec Ideal ⟨2, ![N, 32]⟩ .f32) (W : FVec Ideal ⟨2, ![32, 32]⟩ .f32) :
    addf A0 (Host.dotGeneral (DotDims.plain N 32 32) none AGG W) = resArr A0 AGG W := by
  funext i
  obtain ⟨n, j, rfl⟩ : ∃ (n : Fin N) (j : Fin 32), i = ix2 n j := ⟨i 0, i 1, eq_ix2 i⟩
  show A0 (ix2 n j) + Host.dotGeneral (DotDims.plain N 32 32) none AGG W (ix2 n j) = _
  rw [hmm_row (DotDims.plain N 32 32) rfl rfl (Cert.PlainDot.lhs_at N 32 32) (Cert.PlainDot.rhs_at N 32 32) AGG W n _ (fun _ => rfl) j]
  rfl

end Cert.EdgeMath

end
-- ==== Proof.KernelIdeal.EdgeArray.lean ====
/-
  What the edge-network region leaves in its output array.

  The region's grid has 50 points; point `t` reads rows 16000·t … 16000·t + 15999 of the two edge arrays (the weights and biases are
  whole blocks, the same at every point) and writes back the same rows of the output. Row `r` of what the body stores at point `t` is
  the message of edge 16000·t + r, because every operation of the body acts on a row by itself. The 50 written blocks tile the output
  array, so after the region the array holds the message of every edge.
-/
import proofs.«166699_j21114059227743_2_alg».proof.Proof.KernelIdeal.Region0
import proofs.«166699_j21114059227743_2_alg».proof.Proof.EdgeMath
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat)
open Cert.DenseRow Cert.RowBias Cert.EdgeMath

/-! ## The body's arithmetic at a row -/

/-- Row `p` of the value the body stores is the message of the row the body loaded there: the first 128 loaded columns `xc`, the 32
    edge features `xe`, the weight whose first 128 rows are the third block and whose last 32 the fourth. -/
theorem stored_row0 (x0 : Vec Ideal S16000x128 .f32) (x1 : Vec Ideal S16000x32 .f32) (x2 : Vec Ideal S128x64 .f32)
    (x3 : Vec Ideal S32x64 .f32) (x4 : Vec Ideal S1x64 .f32) (x5 : Vec Ideal S64x64 .f32) (x6 : Vec Ideal S1x64 .f32)
    (x7 : Vec Ideal S64x32 .f32) (x8 : Vec Ideal S1x32 .f32)
    (p : Fin 16000) (xc : Fin 128 → EReal) (h0 : ∀ k : Fin 128, x0 (ix2 p k) = xc k) (xe : Fin 32 → EReal) (h1 : ∀ k : Fin 32, x1 (ix2 p k) = xe k)
    (W0 : Fin 160 → Fin 64 → EReal) (h2 : ∀ (k : Fin 128) (j : Fin 64), x2 (ix2 k j) = W0 ⟨k.val, by have := k.isLt; omega⟩ j)
    (h3 : ∀ (k : Fin 32) (j : Fin 64), x3 (ix2 k j) = W0 ⟨128 + k.val, by have := k.isLt; omega⟩ j) (j : Fin 32) :
    k0_pay1 (F := Ideal) (k0_pay3 x0 x2 x1 x3 x4 x5 x6 x7 x8) (k0_pay4 x0) (k0_pay5 x0) (ix2 p j)
      = msgRow xc xe W0 (fun j => x4 (ix2 (0 : Fin 1) j)) (fun k j => x5 (ix2 k j)) (fun j => x6 (ix2 (0 : Fin 1) j))
          (fun k j => x7 (ix2 k j)) (fun j => x8 (ix2 (0 : Fin 1) j)) j :=
  kmsg_row (R := 16000) x0 x1 x2 x3 x4 x5 x6 x7 x8 shapeCasts_S16000x128_S16000x128 shapeCasts_S128x64_S128x64 shapeCasts_S32x64_S32x64
    shapeCasts_S1x64_S1x64 shapeCasts_S1x32_S1x32 broadcasts_S1x64_S16000x64 broadcasts_S1x32_S16000x32
    slices_S16000x128_o0_64_S16000x32 slices_S16000x128_o0_96_S16000x32 p xc h0 xe h1 W0 h2 h3 j

/-! ## Where each block sits in its array -/

/-- The windows' block indices, decided over the grid: the two edge arrays and the output move one block of rows per point; the
    weights and biases stay at their one block. -/
theorem block_index0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem point_lt0 (t : Fin cfg0.N) : t.val < 50 := by have h := t.isLt; have hN : cfg0.N = 50 := N_0; omega

variable (V : (c : Dev nD) → (b : Ref sig .tc) → Buf (Elt Ideal) ((c : Thread nD τ).loc b))

/-- Row `r` of the first window's block at point `t` is row 16000·t + r of the gathered-features array. -/
theorem read0_0 (c : Dev nD) (t : Fin cfg0.N) (r : Fin 16000) (k : Fin 128) :
    blockAt0 V c 0 t (ix2 r k) = (V c main_v28 : S800000x128.Idx → EReal) (ix2 ⟨16000 * t.val + r.val, by have := point_lt0 t; have := r.isLt; omega⟩ k) := by
  show V c main_v28 (((cfg0.win 0).blk t).view.emb (ix2 r k)) = _
  refine congrArg (V c main_v28) (funext fun a => Fin.ext ?_)
  obtain ⟨⟨e0, e1⟩, -⟩ := block_index0 t
  match a with
  | ⟨0, _⟩ => show win0_0.index t (0 : Fin 2) * 16000 + 1 * r.val = 16000 * t.val + r.val; omega
  | ⟨1, _⟩ => show win0_0.index t (1 : Fin 2) * 128 + 1 * k.val = k.val; omega

/-- … and of the second window's block, of the edge-features array. -/
theorem read0_1 (c : Dev nD) (t : Fin cfg0.N) (r : Fin 16000) (k : Fin 32) :
    blockAt0 V c 1 t (ix2 r k) = (V c main_arg2 : S800000x32.Idx → EReal) (ix2 ⟨16000 * t.val + r.val, by have := point_lt0 t; have := r.isLt; omega⟩ k) := by
  show V c main_arg2 (((cfg0.win 1).blk t).view.emb (ix2 r k)) = _
  refine congrArg (V c main_arg2) (funext fun a => Fin.ext ?_)
  obtain ⟨-, ⟨e0, e1⟩, -⟩ := block_index0 t
  match a with
  | ⟨0, _⟩ => show win0_1.index t (0 : Fin 2) * 16000 + 1 * r.val = 16000 * t.val + r.val; omega
  | ⟨1, _⟩ => show win0_1.index t (1 : Fin 2) * 32 + 1 * k.val = k.val; omega

/-- The weights' and biases' windows hold their whole arrays at every point. -/
theorem read0_2 (c : Dev nD) (t : Fin cfg0.N) (k : Fin 128) (j : Fin 64) :
    blockAt0 V c 2 t (ix2 k j) = (V c main_v29 : S128x64.Idx → EReal) (ix2 k j) := by
  show V c main_v29 (((cfg0.win 2).blk t).view.emb (ix2 k j)) = _
  refine congrArg (V c main_v29) (funext fun a => Fin.ext ?_)
  obtain ⟨-, -, ⟨e0, e1⟩, -⟩ := block_index0 t
  match a with
  | ⟨0, _⟩ => show win0_2.index t (0 : Fin 2) * 128 + 1 * k.val = k.val; omega
  | ⟨1, _⟩ => show win0_2.index t (1 : Fin 2) * 64 + 1 * j.val = j.val; omega
theorem read0_3 (c : Dev nD) (t : Fin cfg0.N) (k : Fin 32) (j : Fin 64) :
    blockAt0 V c 3 t (ix2 k j) = (V c main_v30 : S32x64.Idx → EReal) (ix2 k j) := by
  show V c main_v30 (((cfg0.win 3).blk t).view.emb (ix2 k j)) = _
  refine congrArg (V c main_v30) (funext fun a => Fin.ext ?_)
  obtain ⟨-, -, -, ⟨e0, e1⟩, -⟩ := block_index0 t
  match a with
  | ⟨0, _⟩ => show win0_3.index t (0 : Fin 2) * 32 + 1 * k.val = k.val; omega
  | ⟨1, _⟩ => show win0_3.index t (1 : Fin 2) * 64 + 1 * j.val = j.val; omega
theorem read0_4 (c : Dev nD) (t : Fin cfg0.N) (k : Fin 1) (j : Fin 64) :
    blockAt0 V c 4 t (ix2 k j) = (V c main_v31 : S1x64.Idx → EReal) (ix2 k j) := by
  show V c main_v31 (((cfg0.win 4).blk t).view.emb (ix2 k j)) = _
  refine congrArg (V c main_v31) (funext fun a => Fin.ext ?_)
  obtain ⟨-, -, -, -, ⟨e0, e1⟩, -⟩ := block_index0 t
  match a with
  | ⟨0, _⟩ => show win0_4.index t (0 : Fin 2) * 1 + 1 * k.val = k.val; omega
  | ⟨1, _⟩ => show win0_4.index t (1 : Fin 2) * 64 + 1 * j.val = j.val; omega
theorem read0_5 (c : Dev nD) (t : Fin cfg0.N) (k : Fin 64) (j : Fin 64) :
    blockAt0 V c 5 t (ix2 k j) = (V c main_arg7 : S64x64.Idx → EReal) (ix2 k j) := by
  show V c main_arg7 (((cfg0.win 5).blk t).view.emb (ix2 k j)) = _
  refine congrArg (V c main_arg7) (funext fun a => Fin.ext ?_)
  obtain ⟨-, -, -, -, -, ⟨e0, e1⟩, -⟩ := block_index0 t
  match a with
  | ⟨0, _⟩ => show win0_5.index t (0 : Fin 2) * 64 + 1 * k.val = k.val; omega
  | ⟨1, _⟩ => show win0_5.index t (1 : Fin 2) * 64 + 1 * j.val = j.val; omega
theorem read0_6 (c : Dev nD) (t : Fin cfg0.N) (k : Fin 1) (j : Fin 64) :
    blockAt0 V c 6 t (ix2 k j) = (V c main_v32 : S1x64.Idx → EReal) (ix2 k j) := by
  show V c main_v32 (((cfg0.win 6).blk t).view.emb (ix2 k j)) = _
  refine congrArg (V c main_v32) (funext fun a => Fin.ext ?_)
  obtain ⟨-, -, -, -, -, -, ⟨e0, e1⟩, -⟩ := block_index0 t
  match a with
  | ⟨0, _⟩ => show win0_6.index t (0 : Fin 2) * 1 + 1 * k.val = k.val; omega
  | ⟨1, _⟩ => show win0_6.index t (1 : Fin 2) * 64 + 1 * j.val = j.val; omega
theorem read0_7 (c : Dev nD) (t : Fin cfg0.N) (k : Fin 64) (j : Fin 32) :
    blockAt0 V c 7 t (ix2 k j) = (V c main_arg9 : S64x32.Idx → EReal) (ix2 k j) := by
  show V c main_arg9 (((cfg0.win 7).blk t).view.emb (ix2 k j)) = _
  refine congrArg (V c main_arg9) (funext fun a => Fin.ext ?_)
  obtain ⟨-, -, -, -, -, -, -, ⟨e0, e1⟩, -⟩ := block_index0 t
  match a with
  | ⟨0, _⟩ => show win0_7.index t (0 : Fin 2) * 64 + 1 * k.val = k.val; omega
  | ⟨1, _⟩ => show win0_7.index t (1 : Fin 2) * 32 + 1 * j.val = j.val; omega
theorem read0_8 (c : Dev nD) (t : Fin cfg0.N) (k : Fin 1) (j : Fin 32) :
    blockAt0 V c 8 t (ix2 k j) = (V c main_v33 : S1x32.Idx → EReal) (ix2 k j) := by
  show V c main_v33 (((cfg0.win 8).blk t).view.emb (ix2 k j)) = _
  refine congrArg (V c main_v33) (funext fun a => Fin.ext ?_)
  obtain ⟨-, -, -, -, -, -, -, -, ⟨e0, e1⟩, -⟩ := block_index0 t
  match a with
  | ⟨0, _⟩ => show win0_8.index t (0 : Fin 2) * 1 + 1 * k.val = k.val; omega
  | ⟨1, _⟩ => show win0_8.index t (1 : Fin 2) * 32 + 1 * j.val = j.val; omega

/-! ## What a point writes back, the cover, and the array after the region -/

theorem origin2 : (![0, 0] : Fin 2 → Nat) = fun _ => 0 := funext fun a => by fin_cases a <;> rfl

section Final

variable (c : Dev nD)
  (W0 : (⟨2, ![160, 64]⟩ : Shape).Idx → EReal)
  (hW_top : ∀ (k : Fin 128) (j : Fin 64), (V c main_v29 : S128x64.Idx → EReal) (ix2 k j) = W0 (ix2 ⟨k.val, by have := k.isLt; omega⟩ j))
  (hW_bot : ∀ (k : Fin 32) (j : Fin 64), (V c main_v30 : S32x64.Idx → EReal) (ix2 k j) = W0 (ix2 ⟨128 + k.val, by have := k.isLt; omega⟩ j))
  (B0 : (⟨1, ![64]⟩ : Shape).Idx → EReal) (hB0 : ∀ j : Fin 64, (V c main_v31 : S1x64.Idx → EReal) (ix2 (0 : Fin 1) j) = B0 (ix1 j))
  (B1 : (⟨1, ![64]⟩ : Shape).Idx → EReal) (hB1 : ∀ j : Fin 64, (V c main_v32 : S1x64.Idx → EReal) (ix2 (0 : Fin 1) j) = B1 (ix1 j))
  (B2 : (⟨1, ![32]⟩ : Shape).Idx → EReal) (hB2 : ∀ j : Fin 32, (V c main_v33 : S1x32.Idx → EReal) (ix2 (0 : Fin 1) j) = B2 (ix1 j))

/-- The array of all messages, from the region's entry contents. -/
abbrev messages : S800000x32.Idx → EReal :=
  msgArr (E := 800000) (V c main_v28 : S800000x128.Idx → EReal) (V c main_arg2 : S800000x32.Idx → EReal) W0 B0
    (V c main_arg7 : S64x64.Idx → EReal) B1 (V c main_arg9 : S64x32.Idx → EReal) B2

include hW_top hW_bot hB0 hB1 hB2 in
/-- What point `t` writes back is block `t` of the array of all messages. -/
theorem written0 (t : Fin cfg0.N) :
    (data0 V c).flushed 9 t = ((cfg0.win 9).blk t).view.read (Elt Ideal) (messages V c W0 B0 B1 B2) := by
  show (cfg0.win 9).cut (grid0.coords t) ((data0 V c).after 9 t) = _
  rw [data0_after_9]
  unfold stored0
  rw [View.canon_unit_zero origin2]
  simp only [View.ld_unit_zero (S := S16000x128) origin2, View.ld_unit_zero (S := S16000x32) origin2, View.ld_unit_zero (S := S128x64) origin2,
    View.ld_unit_zero (S := S32x64) origin2, View.ld_unit_zero (S := S1x64) origin2, View.ld_unit_zero (S := S64x64) origin2,
    View.ld_unit_zero (S := S64x32) origin2, View.ld_unit_zero (S := S1x32) origin2]
  funext y
  obtain ⟨r, j, rfl⟩ : ∃ (r : Fin 16000) (j : Fin 32), y = ix2 r j := ⟨y 0, y 1, eq_ix2 y⟩
  have hemb : ((cfg0.win 9).blk t).view.emb (ix2 r j)
      = (ix2 (⟨16000 * t.val + r.val, by have := point_lt0 t; have := r.isLt; omega⟩ : Fin 800000) j : S800000x32.Idx) := by
    funext a; apply Fin.ext
    obtain ⟨-, -, -, -, -, -, -, -, -, e0, e1⟩ := block_index0 t
    match a with
    | ⟨0, _⟩ => show win0_9.index t (0 : Fin 2) * 16000 + 1 * r.val = 16000 * t.val + r.val; omega
    | ⟨1, _⟩ => show win0_9.index t (1 : Fin 2) * 32 + 1 * j.val = j.val; omega
  refine (stored_row0 _ _ _ _ _ _ _ _ _ r _ (fun k => read0_0 V c t r k) _ (fun k => read0_1 V c t r k)
    (fun k j => W0 (ix2 k j)) (fun k j => (read0_2 V c t k j).trans (hW_top k j)) (fun k j => (read0_3 V c t k j).trans (hW_bot k j)) j).trans ?_
  show _ = messages V c W0 B0 B1 B2 (((cfg0.win 9).blk t).view.emb (ix2 r j))
  rw [hemb]
  unfold messages
  rw [msgArr_apply]
  have e4 : (fun j' : Fin 64 => blockAt0 V c 4 t (ix2 (0 : Fin 1) j')) = fun j' => B0 (ix1 j') :=
    funext fun j' => (read0_4 V c t 0 j').trans (hB0 j')
  have e5 : (fun (k : Fin 64) (j' : Fin 64) => blockAt0 V c 5 t (ix2 k j')) = fun k j' => (V c main_arg7 : S64x64.Idx → EReal) (ix2 k j') :=
    funext fun k => funext fun j' => read0_5 V c t k j'
  have e6 : (fun j' : Fin 64 => blockAt0 V c 6 t (ix2 (0 : Fin 1) j')) = fun j' => B1 (ix1 j') :=
    funext fun j' => (read0_6 V c t 0 j').trans (hB1 j')
  have e7 : (fun (k : Fin 64) (j' : Fin 32) => blockAt0 V c 7 t (ix2 k j')) = fun k j' => (V c main_arg9 : S64x32.Idx → EReal) (ix2 k j') :=
    funext fun k => funext fun j' => read0_7 V c t k j'
  have e8 : (fun j' : Fin 32 => blockAt0 V c 8 t (ix2 (0 : Fin 1) j')) = fun j' => B2 (ix1 j') :=
    funext fun j' => (read0_8 V c t 0 j').trans (hB2 j')
  rw [e4, e5, e6, e7, e8]

/-- An index of the output array is in point `t`'s block iff each coordinate is in the block's range. -/
theorem in_block0 (t : Fin cfg0.N) (i : S800000x32.Idx) :
    i ∈ ((cfg0.win 9).blk t).view.set ↔ ∀ a : Fin 2, win0_9.index t a * S16000x32.size a ≤ (i a).val ∧ (i a).val < win0_9.index t a * S16000x32.size a + S16000x32.size a := by
  show i ∈ ((View.whole main_v34).slice (win0_9.rect t)).set ↔ _
  rw [View.set_slice_whole, Rect.mem_set_unit]
  exact Iff.rfl

/-- Every index of the output array lies in the block of the point its row belongs to. -/
theorem covered0 (i : S800000x32.Idx) : ∃ t : Fin cfg0.N, (cfg0.win 9).flush t = true ∧ i ∈ ((cfg0.win 9).blk t).view.set := by
  have hi0 : (i 0).val < 800000 := (i 0).isLt
  have hi1 : (i 1).val < 32 := (i 1).isLt
  refine ⟨⟨(i 0).val / 16000, by rw [show cfg0.N = 50 from N_0]; omega⟩, flush0_9 _, ?_⟩
  rw [in_block0]
  obtain ⟨-, -, -, -, -, -, -, -, -, e0, e1⟩ := block_index0 ⟨(i 0).val / 16000, by rw [show cfg0.N = 50 from N_0]; omega⟩
  intro a
  match a with
  | ⟨0, _⟩ =>
    show win0_9.index _ (0 : Fin 2) * 16000 ≤ (i 0).val ∧ (i 0).val < win0_9.index _ (0 : Fin 2) * 16000 + 16000
    rw [e0]; show (i 0).val / 16000 * 16000 ≤ (i 0).val ∧ (i 0).val < (i 0).val / 16000 * 16000 + 16000; omega
  | ⟨1, _⟩ =>
    show win0_9.index _ (1 : Fin 2) * 32 ≤ (i 1).val ∧ (i 1).val < win0_9.index _ (1 : Fin 2) * 32 + 32
    rw [e1]; omega

include hW_top hW_bot hB0 hB1 hB2 in
/-- After the region the output array holds every edge's message. -/
theorem messages_left : (data0 V c).arrAt 9 cfg0.N = messages V c W0 B0 B1 B2 :=
  (data0 V c).arrAt_eq_of_cover 9 (messages V c W0 B0 B1 B2) (fun t _ => written0 V c W0 hW_top hW_bot B0 hB0 B1 hB1 B2 hB2 t) (covered0)

end Final

end Cert.KernelIdeal.Regions

end
-- ==== Proof.KernelIdeal.ResidArray.lean ====
/-
  What the residual region leaves in its output array.

  The grid has 10 points; point `t` reads rows 10000·t … 10000·t + 9999 of the packed array (a node's old features beside its aggregated
  messages) and the whole square matrix, and writes back the same rows of the output. Row `r` of what the body stores is the update of
  node 10000·t + r, the 10 written blocks tile the output array, so after the region the array holds every node's update.
-/
import proofs.«166699_j21114059227743_2_alg».proof.Proof.KernelIdeal.Region1
import proofs.«166699_j21114059227743_2_alg».proof.Proof.EdgeMath
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat)
open Cert.DenseRow Cert.RowBias Cert.EdgeMath

/-- Row `p` of the value the body stores is the update of the packed row the body loaded there. -/
theorem stored_row1 (x0 : Vec Ideal S10000x64 .f32) (x1 : Vec Ideal S32x32 .f32) (p : Fin 10000) (h g : Fin 32 → EReal)
    (hh : ∀ k : Fin 32, x0 (ix2 p ⟨k.val, by have := k.isLt; omega⟩) = h k)
    (hg : ∀ k : Fin 32, x0 (ix2 p ⟨32 + k.val, by have := k.isLt; omega⟩) = g k) (j : Fin 32) :
    k1_pay1 (F := Ideal) x0 x1 (ix2 p j) = resRow h g (fun k j => x1 (ix2 k j)) j :=
  kres_row (R := 10000) x0 x1 shapeCasts_S10000x64_S10000x64 slices_S10000x64_o0_0_S10000x32 slices_S10000x64_o0_32_S10000x32 p h g hh hg j

/-- The windows' block indices over the grid: the packed array and the output move one block of rows per point; the matrix stays. -/
theorem block_index1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

theorem point_lt1 (t : Fin cfg1.N) : t.val < 10 := by have h := t.isLt; have hN : cfg1.N = 10 := N_1; omega

variable (V : (c : Dev nD) → (b : Ref sig .tc) → Buf (Elt Ideal) ((c : Thread nD τ).loc b))

/-- Row `r` of the first window's block at point `t` is row 10000·t + r of the packed array. -/
theorem read1_0 (c : Dev nD) (t : Fin cfg1.N) (r : Fin 10000) (k : Fin 64) :
    blockAt1 V c 0 t (ix2 r k) = (V c main_v38 : S100000x64.Idx → EReal) (ix2 ⟨10000 * t.val + r.val, by have := point_lt1 t; have := r.isLt; omega⟩ k) := by
  show V c main_v38 (((cfg1.win 0).blk t).view.emb (ix2 r k)) = _
  refine congrArg (V c main_v38) (funext fun a => Fin.ext ?_)
  obtain ⟨⟨e0, e1⟩, -⟩ := block_index1 t
  match a with
  | ⟨0, _⟩ => show win1_0.index t (0 : Fin 2) * 10000 + 1 * r.val = 10000 * t.val + r.val; omega
  | ⟨1, _⟩ => show win1_0.index t (1 : Fin 2) * 64 + 1 * k.val = k.val; omega

/-- The matrix's window holds the whole matrix at every point. -/
theorem read1_1 (c : Dev nD) (t : Fin cfg1.N) (k : Fin 32) (j : Fin 32) :
    blockAt1 V c 1 t (ix2 k j) = (V c main_arg11 : S32x32.Idx → EReal) (ix2 k j) := by
  show V c main_arg11 (((cfg1.win 1).blk t).view.emb (ix2 k j)) = _
  refine congrArg (V c main_arg11) (funext fun a => Fin.ext ?_)
  obtain ⟨-, ⟨e0, e1⟩, -⟩ := block_index1 t
  match a with
  | ⟨0, _⟩ => show win1_1.index t (0 : Fin 2) * 32 + 1 * k.val = k.val; omega
  | ⟨1, _⟩ => show win1_1.index t (1 : Fin 2) * 32 + 1 * j.val = j.val; omega

theorem origin2' : (![0, 0] : Fin 2 → Nat) = fun _ => 0 := funext fun a => by fin_cases a <;> rfl

section Final

variable (c : Dev nD) (A0 AGG : (⟨2, ![100000, 32]⟩ : Shape).Idx → EReal)
  (hlo : ∀ (n : Fin 100000) (k : Fin 32), (V c main_v38 : S100000x64.Idx → EReal) (ix2 n ⟨k.val, by have := k.isLt; omega⟩) = A0 (ix2 n k))
  (hhi : ∀ (n : Fin 100000) (k : Fin 32), (V c main_v38 : S100000x64.Idx → EReal) (ix2 n ⟨32 + k.val, by have := k.isLt; omega⟩) = AGG (ix2 n k))

/-- The array of all updates, from the old features, the aggregated messages and the matrix as the region finds it. -/
abbrev updates : S100000x32.Idx → EReal := resArr (N := 100000) A0 AGG (V c main_arg11 : S32x32.Idx → EReal)

include hlo hhi in
/-- What point `t` writes back is block `t` of the array of all updates. -/
theorem written1 (t : Fin cfg1.N) :
    (data1 V c).flushed 2 t = ((cfg1.win 2).blk t).view.read (Elt Ideal) (updates V c A0 AGG) := by
  show (cfg1.win 2).cut (grid1.coords t) ((data1 V c).after 2 t) = _
  rw [data1_after_2]
  unfold stored1
  rw [View.canon_unit_zero origin2']
  simp only [View.ld_unit_zero (S := S10000x64) origin2', View.ld_unit_zero (S := S32x32) origin2']
  funext y
  obtain ⟨r, j, rfl⟩ : ∃ (r : Fin 10000) (j : Fin 32), y = ix2 r j := ⟨y 0, y 1, eq_ix2 y⟩
  have hemb : ((cfg1.win 2).blk t).view.emb (ix2 r j)
      = (ix2 (⟨10000 * t.val + r.val, by have := point_lt1 t; have := r.isLt; omega⟩ : Fin 100000) j : S100000x32.Idx) := by
    funext a; apply Fin.ext
    obtain ⟨-, -, e0, e1⟩ := block_index1 t
    match a with
    | ⟨0, _⟩ => show win1_2.index t (0 : Fin 2) * 10000 + 1 * r.val = 10000 * t.val + r.val; omega
    | ⟨1, _⟩ => show win1_2.index t (1 : Fin 2) * 32 + 1 * j.val = j.val; omega
  refine (stored_row1 _ _ r _ _ (fun k => (read1_0 V c t r _).trans (hlo _ k)) (fun k => (read1_0 V c t r _).trans (hhi _ k)) j).trans ?_
  show _ = updates V c A0 AGG (((cfg1.win 2).blk t).view.emb (ix2 r j))
  rw [hemb]
  unfold updates
  rw [resArr_apply]
  exact congrArg (fun (w : Fin 32 → Fin 32 → EReal) => resRow _ _ w j) (funext fun k => funext fun j' => read1_1 V c t k j')

theorem in_block1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v39).slice (win1_2.rect t)).set ↔ _
  rw [View.set_slice_whole, Rect.mem_set_unit]
  exact Iff.rfl

theorem covered1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  refine ⟨⟨(i 0).val / 10000, by rw [show cfg1.N = 10 from N_1]; omega⟩, flush1_2 _, ?_⟩
  rw [in_block1]
  obtain ⟨-, -, e0, e1⟩ := block_index1 ⟨(i 0).val / 10000, by rw [show cfg1.N = 10 from N_1]; omega⟩
  intro a
  match a with
  | ⟨0, _⟩ =>
    show win1_2.index _ (0 : Fin 2) * 10000 ≤ (i 0).val ∧ (i 0).val < win1_2.index _ (0 : Fin 2) * 10000 + 10000
    rw [e0]; show (i 0).val / 10000 * 10000 ≤ (i 0).val ∧ (i 0).val < (i 0).val / 10000 * 10000 + 10000; omega
  | ⟨1, _⟩ =>
    show win1_2.index _ (1 : Fin 2) * 32 ≤ (i 1).val ∧ (i 1).val < win1_2.index _ (1 : Fin 2) * 32 + 32
    rw [e1]; omega

include hlo hhi in
/-- After the region the output array holds every node's update. -/
theorem updates_left : (data1 V c).arrAt 2 cfg1.N = updates V c A0 AGG :=
  (data1 V c).arrAt_eq_of_cover 2 (updates V c A0 AGG) (fun t _ => written1 V c A0 AGG hlo hhi t) (covered1)

end Final

end Cert.KernelIdeal.Regions

end
-- ==== Proof.Pieces.lean ====
/-
  Arrays joined along the columns, read at an index, and the host's array of messages.

  Four (or five) arrays of `E` rows and 32 columns joined side by side form an array of 128 (or 160) columns whose column
  32·k + j is column j of piece k. So the five-piece join of the reference is the four-piece join of the kernel beside the fifth
  piece, and the third and fourth quarters of the four-piece join are the third and fourth pieces themselves. With the three dense
  layers read row by row this makes the host's array of messages the specification's.
-/
import proofs.«166699_j21114059227743_2_alg».proof.Proof.EdgeMath

noncomputable section

open scoped BigOperators

namespace Cert.EdgeMath

open Idealize.ShloMosaic Idealize.ShloMosaic.ValueIdx Cert.DenseRow Cert.RowBias Cert.DenseStep

/-- Column 32·k + j of four joined pieces is column j of piece k. -/
theorem piece4 {E : ℕ} (g : Fin 4 → ((⟨2, ![E, 32]⟩ : Shape).Idx → EReal))
    (h : Shape.Concatenates [(⟨2, ![E, 32]⟩ : Shape), ⟨2, ![E, 32]⟩, ⟨2, ![E, 32]⟩, ⟨2, ![E, 32]⟩] ⟨2, ![E, 128]⟩ (1 : Fin 2))
    (e : Fin E) (k : Fin 4) (j : Fin 32) :
    concatenate ⟨2, ![E, 128]⟩ (1 : Fin 2) [⟨⟨2, ![E, 32]⟩, g 0⟩, ⟨⟨2, ![E, 32]⟩, g 1⟩, ⟨⟨2, ![E, 32]⟩, g 2⟩, ⟨⟨2, ![E, 32]⟩, g 3⟩] h
        (ix2 e ⟨32 * k.val + j.val, by have := k.isLt; have := j.isLt; omega⟩) = g k (ix2 e j) := by
  refine concatenate_apply_piece (t := ⟨2, ![E, 128]⟩) (1 : Fin 2)
    [⟨⟨2, ![E, 32]⟩, g 0⟩, ⟨⟨2, ![E, 32]⟩, g 1⟩, ⟨⟨2, ![E, 32]⟩, g 2⟩, ⟨⟨2, ![E, 32]⟩, g 3⟩] h _ k.val k.isLt ⟨2, ![E, 32]⟩ (g k) ?_ rfl
    (32 * k.val) ?_ (ix2 e j) ?_ rfl
  · fin_cases k <;> rfl
  · fin_cases k <;> rfl
  · intro b hb
    match b with
    | ⟨0, _⟩ => rfl
    | ⟨1, _⟩ => exact absurd rfl hb

/-- Column 32·k + j of five joined pieces is column j of piece k. -/
theorem piece5 {E : ℕ} (g : Fin 5 → ((⟨2, ![E, 32]⟩ : Shape).Idx → EReal))
    (h : Shape.Concatenates [(⟨2, ![E, 32]⟩ : Shape), ⟨2, ![E, 32]⟩, ⟨2, ![E, 32]⟩, ⟨2, ![E, 32]⟩, ⟨2, ![E, 32]⟩] ⟨2, ![E, 160]⟩ (1 : Fin 2))
    (e : Fin E) (k : Fin 5) (j : Fin 32) :
    concatenate ⟨2, ![E, 160]⟩ (1 : Fin 2)
        [⟨⟨2, ![E, 32]⟩, g 0⟩, ⟨⟨2, ![E, 32]⟩, g 1⟩, ⟨⟨2, ![E, 32]⟩, g 2⟩, ⟨⟨2, ![E, 32]⟩, g 3⟩, ⟨⟨2, ![E, 32]⟩, g 4⟩] h
        (ix2 e ⟨32 * k.val + j.val, by have := k.isLt; have := j.isLt; omega⟩) = g k (ix2 e j) := by
  refine concatenate_apply_piece (t := ⟨2, ![E, 160]⟩) (1 : Fin 2)
    [⟨⟨2, ![E, 32]⟩, g 0⟩, ⟨⟨2, ![E, 32]⟩, g 1⟩, ⟨⟨2, ![E, 32]⟩, g 2⟩, ⟨⟨2, ![E, 32]⟩, g 3⟩, ⟨⟨2, ![E, 32]⟩, g 4⟩] h _ k.val k.isLt
    ⟨2, ![E, 32]⟩ (g k) ?_ rfl (32 * k.val) ?_ (ix2 e j) ?_ rfl
  · fin_cases k <;> rfl
  · fin_cases k <;> rfl
  · intro b hb
    match b with
    | ⟨0, _⟩ => rfl
    | ⟨1, _⟩ => exact absurd rfl hb

section Rows

variable {E : ℕ} (g0 g1 g2 g3 ef : FVec Ideal ⟨2, ![E, 32]⟩ .f32)
  (h4 : Shape.Concatenates [(⟨2, ![E, 32]⟩ : Shape), ⟨2, ![E, 32]⟩, ⟨2, ![E, 32]⟩, ⟨2, ![E, 32]⟩] ⟨2, ![E, 128]⟩ (1 : Fin 2))
  (h5 : Shape.Concatenates [(⟨2, ![E, 32]⟩ : Shape), ⟨2, ![E, 32]⟩, ⟨2, ![E, 32]⟩, ⟨2, ![E, 32]⟩, ⟨2, ![E, 32]⟩] ⟨2, ![E, 160]⟩ (1 : Fin 2))

/-- The four gathered pieces side by side. -/
abbrev join4 : FVec Ideal ⟨2, ![E, 128]⟩ .f32 :=
  concatenate ⟨2, ![E, 128]⟩ (1 : Fin 2) [⟨⟨2, ![E, 32]⟩, g0⟩, ⟨⟨2, ![E, 32]⟩, g1⟩, ⟨⟨2, ![E, 32]⟩, g2⟩, ⟨⟨2, ![E, 32]⟩, g3⟩] h4
/-- The same with the edge features as a fifth piece. -/
abbrev join5 : FVec Ideal ⟨2, ![E, 160]⟩ .f32 :=
  concatenate ⟨2, ![E, 160]⟩ (1 : Fin 2)
    [⟨⟨2, ![E, 32]⟩, g0⟩, ⟨⟨2, ![E, 32]⟩, g1⟩, ⟨⟨2, ![E, 32]⟩, g2⟩, ⟨⟨2, ![E, 32]⟩, g3⟩, ⟨⟨2, ![E, 32]⟩, ef⟩] h5

theorem join4_at (e : Fin E) (k : Fin 4) (j : Fin 32) :
    join4 g0 g1 g2 g3 h4 (ix2 e ⟨32 * k.val + j.val, by have := k.isLt; have := j.isLt; omega⟩) = (![g0, g1, g2, g3] k) (ix2 e j) :=
  piece4 ![g0, g1, g2, g3] h4 e k j

theorem join5_at (e : Fin E) (k : Fin 5) (j : Fin 32) :
    join5 g0 g1 g2 g3 ef h5 (ix2 e ⟨32 * k.val + j.val, by have := k.isLt; have := j.isLt; omega⟩) = (![g0, g1, g2, g3, ef] k) (ix2 e j) :=
  piece5 ![g0, g1, g2, g3, ef] h5 e k j

/-- Column 32·0 + j of a row of the five-piece join, as the four-piece join's row beside the fifth piece's. -/
theorem row5_0 (e : Fin E) (j : Fin 32) :
    join5 g0 g1 g2 g3 ef h5 (ix2 e ⟨32 * 0 + j.val, by have := j.isLt; omega⟩)
      = cat (A := 128) (B := 32) (C := 160) rfl (fun a => join4 g0 g1 g2 g3 h4 (ix2 e a)) (fun b => ef (ix2 e b))
          ⟨32 * 0 + j.val, by have := j.isLt; omega⟩ := by
  rw [cat_left (A := 128) (B := 32) (C := 160) rfl _ _ _ (by show 32 * 0 + j.val < 128; have := j.isLt; omega)]
  exact ((join5_at g0 g1 g2 g3 ef h5 e 0 j).trans (join4_at g0 g1 g2 g3 h4 e 0 j).symm)

/-- Column 32·1 + j of a row of the five-piece join, as the four-piece join's row beside the fifth piece's. -/
theorem row5_1 (e : Fin E) (j : Fin 32) :
    join5 g0 g1 g2 g3 ef h5 (ix2 e ⟨32 * 1 + j.val, by have := j.isLt; omega⟩)
      = cat (A := 128) (B := 32) (C := 160) rfl (fun a => join4 g0 g1 g2 g3 h4 (ix2 e a)) (fun b => ef (ix2 e b))
          ⟨32 * 1 + j.val, by have := j.isLt; omega⟩ := by
  rw [cat_left (A := 128) (B := 32) (C := 160) rfl _ _ _ (by show 32 * 1 + j.val < 128; have := j.isLt; omega)]
  exact ((join5_at g0 g1 g2 g3 ef h5 e 1 j).trans (join4_at g0 g1 g2 g3 h4 e 1 j).symm)

/-- Column 32·2 + j of a row of the five-piece join, as the four-piece join's row beside the fifth piece's. -/
theorem row5_2 (e : Fin E) (j : Fin 32) :
    join5 g0 g1 g2 g3 ef h5 (ix2 e ⟨32 * 2 + j.val, by have := j.isLt; omega⟩)
      = cat (A := 128) (B := 32) (C := 160) rfl (fun a => join4 g0 g1 g2 g3 h4 (ix2 e a)) (fun b => ef (ix2 e b))
          ⟨32 * 2 + j.val, by have := j.isLt; omega⟩ := by
  rw [cat_left (A := 128) (B := 32) (C := 160) rfl _ _ _ (by show 32 * 2 + j.val < 128; have := j.isLt; omega)]
  exact ((join5_at g0 g1 g2 g3 ef h5 e 2 j).trans (join4_at g0 g1 g2 g3 h4 e 2 j).symm)

/-- Column 32·3 + j of a row of the five-piece join, as the four-piece join's row beside the fifth piece's. -/
theorem row5_3 (e : Fin E) (j : Fin 32) :
    join5 g0 g1 g2 g3 ef h5 (ix2 e ⟨32 * 3 + j.val, by have := j.isLt; omega⟩)
      = cat (A := 128) (B := 32) (C := 160) rfl (fun a => join4 g0 g1 g2 g3 h4 (ix2 e a)) (fun b => ef (ix2 e b))
          ⟨32 * 3 + j.val, by have := j.isLt; omega⟩ := by
  rw [cat_left (A := 128) (B := 32) (C := 160) rfl _ _ _ (by show 32 * 3 + j.val < 128; have := j.isLt; omega)]
  exact ((join5_at g0 g1 g2 g3 ef h5 e 3 j).trans (join4_at g0 g1 g2 g3 h4 e 3 j).symm)

/-- Column 32·4 + j of a row of the five-piece join, as the four-piece join's row beside the fifth piece's. -/
theorem row5_4 (e : Fin E) (j : Fin 32) :
    join5 g0 g1 g2 g3 ef h5 (ix2 e ⟨32 * 4 + j.val, by have := j.isLt; omega⟩)
      = cat (A := 128) (B := 32) (C := 160) rfl (fun a => join4 g0 g1 g2 g3 h4 (ix2 e a)) (fun b => ef (ix2 e b))
          ⟨32 * 4 + j.val, by have := j.isLt; omega⟩ := by
  rw [cat_right (A := 128) (B := 32) (C := 160) rfl _ _ _ (by show ¬ 32 * 4 + j.val < 128; omega)]
  exact (join5_at g0 g1 g2 g3 ef h5 e 4 j).trans (congrArg ef (congrArg (ix2 e) (Fin.ext (by show j.val = 32 * 4 + j.val - 128; omega))))

/-- A row of the five-piece join is the four-piece join's row beside the fifth piece's. -/
theorem row5 (e : Fin E) (q : Fin 160) :
    join5 g0 g1 g2 g3 ef h5 (ix2 e q)
      = cat (A := 128) (B := 32) (C := 160) rfl (fun a => join4 g0 g1 g2 g3 h4 (ix2 e a)) (fun b => ef (ix2 e b)) q := by
  have hq := q.isLt
  rcases (by omega : q.val / 32 = 0 ∨ q.val / 32 = 1 ∨ q.val / 32 = 2 ∨ q.val / 32 = 3 ∨ q.val / 32 = 4) with h | h | h | h | h
  · rw [show q = ⟨32 * 0 + (⟨q.val % 32, by omega⟩ : Fin 32).val, by show 32 * 0 + q.val % 32 < 160; omega⟩ from Fin.ext (by show q.val = 32 * 0 + q.val % 32; omega)]
    exact row5_0 g0 g1 g2 g3 ef h4 h5 e _
  · rw [show q = ⟨32 * 1 + (⟨q.val % 32, by omega⟩ : Fin 32).val, by show 32 * 1 + q.val % 32 < 160; omega⟩ from Fin.ext (by show q.val = 32 * 1 + q.val % 32; omega)]
    exact row5_1 g0 g1 g2 g3 ef h4 h5 e _
  · rw [show q = ⟨32 * 2 + (⟨q.val % 32, by omega⟩ : Fin 32).val, by show 32 * 2 + q.val % 32 < 160; omega⟩ from Fin.ext (by show q.val = 32 * 2 + q.val % 32; omega)]
    exact row5_2 g0 g1 g2 g3 ef h4 h5 e _
  · rw [show q = ⟨32 * 3 + (⟨q.val % 32, by omega⟩ : Fin 32).val, by show 32 * 3 + q.val % 32 < 160; omega⟩ from Fin.ext (by show q.val = 32 * 3 + q.val % 32; omega)]
    exact row5_3 g0 g1 g2 g3 ef h4 h5 e _
  · rw [show q = ⟨32 * 4 + (⟨q.val % 32, by omega⟩ : Fin 32).val, by show 32 * 4 + q.val % 32 < 160; omega⟩ from Fin.ext (by show q.val = 32 * 4 + q.val % 32; omega)]
    exact row5_4 g0 g1 g2 g3 ef h4 h5 e _

/-- The fourth quarter of the four-piece join is the fourth piece, -/
theorem quarter3 (e : Fin E) (j : Fin 32) :
    join4 g0 g1 g2 g3 h4 (ix2 e ⟨96 + j.val, by have := j.isLt; omega⟩) = g3 (ix2 e j) :=
  join4_at g0 g1 g2 g3 h4 e 3 j
/-- and the third quarter the third piece. -/
theorem quarter2 (e : Fin E) (j : Fin 32) :
    join4 g0 g1 g2 g3 h4 (ix2 e ⟨64 + j.val, by have := j.isLt; omega⟩) = g2 (ix2 e j) :=
  join4_at g0 g1 g2 g3 h4 e 2 j

/-- The host's array of messages — its three layers on the five-piece join, times the fourth piece less the third — is the
    specification's, on the four-piece join and the edge features. -/
theorem hmsg (w0 : FVec Ideal ⟨2, ![160, 64]⟩ .f32) (b0 : FVec Ideal ⟨1, ![64]⟩ .f32)
    (w1 : FVec Ideal ⟨2, ![64, 64]⟩ .f32) (b1 : FVec Ideal ⟨1, ![64]⟩ .f32) (w2 : FVec Ideal ⟨2, ![64, 32]⟩ .f32) (b2 : FVec Ideal ⟨1, ![32]⟩ .f32)
    (u64 : (⟨1, ![64]⟩ : Shape).BroadcastsInDim ⟨2, ![1, 64]⟩ ![1]) (r64 : (⟨2, ![1, 64]⟩ : Shape).BroadcastsInDim ⟨2, ![E, 64]⟩ ![0, 1])
    (z64 : (⟨0, ![]⟩ : Shape).BroadcastsInDim ⟨2, ![E, 64]⟩ ![])
    (u32 : (⟨1, ![32]⟩ : Shape).BroadcastsInDim ⟨2, ![1, 32]⟩ ![1]) (r32 : (⟨2, ![1, 32]⟩ : Shape).BroadcastsInDim ⟨2, ![E, 32]⟩ ![0, 1])
    (z32 : (⟨0, ![]⟩ : Shape).BroadcastsInDim ⟨2, ![E, 32]⟩ ![]) :
    mulf (maximumf (addf (Host.dotGeneral (DotDims.plain E 64 32) none
        (maximumf (addf (Host.dotGeneral (DotDims.plain E 64 64) none
            (maximumf (addf (Host.dotGeneral (DotDims.plain E 160 64) none (join5 g0 g1 g2 g3 ef h5) w0)
                (broadcastInDim ⟨2, ![E, 64]⟩ ![0, 1] r64 (broadcastInDim ⟨2, ![1, 64]⟩ ![1] u64 b0)))
              (broadcastInDim ⟨2, ![E, 64]⟩ ![] z64 (constant (F := Ideal) ⟨0, ![]⟩ .f32 0x00000000#32)))
            w1)
            (broadcastInDim ⟨2, ![E, 64]⟩ ![0, 1] r64 (broadcastInDim ⟨2, ![1, 64]⟩ ![1] u64 b1)))
          (broadcastInDim ⟨2, ![E, 64]⟩ ![] z64 (constant (F := Ideal) ⟨0, ![]⟩ .f32 0x00000000#32)))
        w2)
        (broadcastInDim ⟨2, ![E, 32]⟩ ![0, 1] r32 (broadcastInDim ⟨2, ![1, 32]⟩ ![1] u32 b2)))
      (broadcastInDim ⟨2, ![E, 32]⟩ ![] z32 (constant (F := Ideal) ⟨0, ![]⟩ .f32 0x00000000#32)))
      (subf g3 g2)
      = msgArr (join4 g0 g1 g2 g3 h4) ef w0 b0 w1 b1 w2 b2 := by
  funext i
  obtain ⟨e, j, rfl⟩ : ∃ (e : Fin E) (j : Fin 32), i = ix2 e j := ⟨i 0, i 1, eq_ix2 i⟩
  rw [msgArr_apply]
  unfold msgRow
  refine congrArg₂ (fun a b : EReal => a * b) ?_ (congrArg₂ (fun a b : EReal => a - b) ?_ ?_)
  · exact hnet_row (join5 g0 g1 g2 g3 ef h5) w0 b0 w1 b1 w2 b2 u64 r64 z64 u32 r32 z32 e _ (fun k => row5 g0 g1 g2 g3 ef h4 h5 e k) j
  · exact (quarter3 g0 g1 g2 g3 h4 e j).symm
  · exact (quarter2 g0 g1 g2 g3 h4 e j).symm

end Rows

end Cert.EdgeMath

end
-- ==== Proof.KernelIdeal.Value.lean ====
/-
  The kernel program's result, as one function of the argument arrays.

  Entering the edge-network region the core's buffers hold, beside the arguments, what the first stretch of host operations computed
  from them: the four gathered arrays joined side by side, the first layer's weight cut into its first 128 and its last 32 rows, and
  the three biases as one-row arrays. With these the region's output is the array of all messages. The second stretch aggregates
  the messages per receiving node and packs the result beside the old node features; the residual region then leaves every node's
  update in the result buffer.
-/
import proofs.«166699_j21114059227743_2_alg».proof.Proof.KernelIdeal.Run
import proofs.«166699_j21114059227743_2_alg».proof.Proof.KernelIdeal.EdgeArray
import proofs.«166699_j21114059227743_2_alg».proof.Proof.KernelIdeal.ResidArray
import proofs.«166699_j21114059227743_2_alg».proof.Proof.Pieces
import Idealize.ShloMosaic.Lib.StableHlo.Run

set_option maxRecDepth 16384

noncomputable section

namespace Cert.KernelIdeal.Regions

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)
open Cert.DenseRow Cert.RowBias Cert.EdgeMath

variable (m : (ℓ : Loc nD τ sig) → Buf (Elt Ideal) ℓ) (c : Dev nD)

/-! ## The host's operations between the regions -/

/-- Rows of a node table picked by a list of node indices, an index below zero counted from the table's end. -/
abbrev gathered (x : (⟨S100000x32, .f32⟩ : BufTy).Contents (Elt Ideal)) (idx : (⟨S800000, .i32⟩ : BufTy).Contents (Elt Ideal)) :
    FVec Ideal S800000x32 .f32 :=
  Host.gather gather_S100000x32_S800000x1_S800000x32_1_0_n_n_0_1_132 x
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 100000#32))) idx))

/-- The four gathered arrays side by side: source features at the sender and at the receiver, then the old node features at the
    sender and at the receiver. -/
abbrev gathered4 : FVec Ideal S800000x128 .f32 :=
  join4 (E := 800000)
    (gathered (m ((c : Thread nD τ).loc main_arg1)) (m ((c : Thread nD τ).loc main_arg3)))
    (gathered (m ((c : Thread nD τ).loc main_arg1)) (m ((c : Thread nD τ).loc main_arg4)))
    (gathered (m ((c : Thread nD τ).loc main_arg0)) (m ((c : Thread nD τ).loc main_arg3)))
    (gathered (m ((c : Thread nD τ).loc main_arg0)) (m ((c : Thread nD τ).loc main_arg4)))
    concatenates_S800000x32_S800000x32_S800000x32_S800000x32_S800000x128_d1

theorem entry_v28 : (E1 m c main_v28 : S800000x128.Idx → EReal) = gathered4 m c := by
  show StableHlo.after hostOps0 (fun b => m (c, b)) (Proc.devRef .tc main_v28) = _
  after_results_simp <;> rfl

theorem entry_v29 : (E1 m c main_v29 : S128x64.Idx → EReal)
    = extractStridedSlice S128x64 ![0, 0] (m ((c : Thread nD τ).loc main_arg5)) slices_S160x64_S128x64_0_0 := by
  show StableHlo.after hostOps0 (fun b => m (c, b)) (Proc.devRef .tc main_v29) = _
  after_results_simp <;> rfl

theorem entry_v30 : (E1 m c main_v30 : S32x64.Idx → EReal)
    = extractStridedSlice S32x64 ![128, 0] (m ((c : Thread nD τ).loc main_arg5)) slices_S160x64_S32x64_128_0 := by
  show StableHlo.after hostOps0 (fun b => m (c, b)) (Proc.devRef .tc main_v30) = _
  after_results_simp <;> rfl

theorem entry_v31 : (E1 m c main_v31 : S1x64.Idx → EReal) = shapeCast S1x64 (m ((c : Thread nD τ).loc main_arg6)) shapeCasts_S64_S1x64 := by
  show StableHlo.after hostOps0 (fun b => m (c, b)) (Proc.devRef .tc main_v31) = _
  after_results_simp <;> rfl

theorem entry_v32 : (E1 m c main_v32 : S1x64.Idx → EReal) = shapeCast S1x64 (m ((c : Thread nD τ).loc main_arg8)) shapeCasts_S64_S1x64 := by
  show StableHlo.after hostOps0 (fun b => m (c, b)) (Proc.devRef .tc main_v32) = _
  after_results_simp <;> rfl

theorem entry_v33 : (E1 m c main_v33 : S1x32.Idx → EReal) = shapeCast S1x32 (m ((c : Thread nD τ).loc main_arg10)) shapeCasts_S32_S1x32 := by
  show StableHlo.after hostOps0 (fun b => m (c, b)) (Proc.devRef .tc main_v33) = _
  after_results_simp <;> rfl

/-- No host operation of the first stretch writes an argument. -/
theorem entry_arg2 : E1 m c main_arg2 = m ((c : Thread nD τ).loc main_arg2) :=
  StableHlo.after_of_writes_sub hostOps0 _ hostOps0_writes (by decide)
theorem entry_arg7 : E1 m c main_arg7 = m ((c : Thread nD τ).loc main_arg7) :=
  StableHlo.after_of_writes_sub hostOps0 _ hostOps0_writes (by decide)
theorem entry_arg9 : E1 m c main_arg9 = m ((c : Thread nD τ).loc main_arg9) :=
  StableHlo.after_of_writes_sub hostOps0 _ hostOps0_writes (by decide)

/-! ## The array of messages the first region leaves -/

/-- The messages of all edges, from the arguments. -/
abbrev allMessages : FVec Ideal S800000x32 .f32 :=
  msgArr (E := 800000) (gathered4 m c) (m ((c : Thread nD τ).loc main_arg2)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem weight_top (k : Fin 128) (j : Fin 64) :
    (E1 m c main_v29 : S128x64.Idx → EReal) (ix2 k j) = (m ((c : Thread nD τ).loc main_arg5) : S160x64.Idx → EReal) (ix2 ⟨k.val, by have := k.isLt; omega⟩ j) := by
  rw [entry_v29]
  have hk : ∀ a : Fin S160x64.rank, ((ix2 (⟨k.val, by have := k.isLt; omega⟩ : Fin 160) j : S160x64.Idx) a).val
      = (![0, 0] : Fin 2 → ℕ) a + ((ix2 k j : S128x64.Idx) (a.cast slices_S160x64_S128x64_0_0.1.symm)).val := fun a => by
    match a with
    | ⟨0, _⟩ => exact (Nat.zero_add _).symm
    | ⟨1, _⟩ => exact (Nat.zero_add _).symm
  exact extractStridedSlice_apply _ _ slices_S160x64_S128x64_0_0 _ _ hk

theorem weight_bottom (k : Fin 32) (j : Fin 64) :
    (E1 m c main_v30 : S32x64.Idx → EReal) (ix2 k j) = (m ((c : Thread nD τ).loc main_arg5) : S160x64.Idx → EReal) (ix2 ⟨128 + k.val, by have := k.isLt; omega⟩ j) := by
  rw [entry_v30]
  have hk : ∀ a : Fin S160x64.rank, ((ix2 (⟨128 + k.val, by have := k.isLt; omega⟩ : Fin 160) j : S160x64.Idx) a).val
      = (![128, 0] : Fin 2 → ℕ) a + ((ix2 k j : S32x64.Idx) (a.cast slices_S160x64_S32x64_128_0.1.symm)).val := fun a => by
    match a with
    | ⟨0, _⟩ => rfl
    | ⟨1, _⟩ => exact (Nat.zero_add _).symm
  exact extractStridedSlice_apply _ _ slices_S160x64_S32x64_128_0 _ _ hk

theorem bias0 (j : Fin 64) : (E1 m c main_v31 : S1x64.Idx → EReal) (ix2 (0 : Fin 1) j) = (m ((c : Thread nD τ).loc main_arg6) : S64.Idx → EReal) (ix1 j) := by
  rw [entry_v31]; exact shapeCast_a_1a_apply _ shapeCasts_S64_S1x64 0 j
theorem bias1 (j : Fin 64) : (E1 m c main_v32 : S1x64.Idx → EReal) (ix2 (0 : Fin 1) j) = (m ((c : Thread nD τ).loc main_arg8) : S64.Idx → EReal) (ix1 j) := by
  rw [entry_v32]; exact shapeCast_a_1a_apply _ shapeCasts_S64_S1x64 0 j
theorem bias2 (j : Fin 32) : (E1 m c main_v33 : S1x32.Idx → EReal) (ix2 (0 : Fin 1) j) = (m ((c : Thread nD τ).loc main_arg10) : S32.Idx → EReal) (ix1 j) := by
  rw [entry_v33]; exact shapeCast_a_1a_apply _ shapeCasts_S32_S1x32 0 j

/-- After the edge-network region its output array holds the messages of all edges. -/
theorem messages_at_exit : (data0 (E1 m) c).arrAt 9 cfg0.N = allMessages m c := by
  refine (messages_left (E1 m) c (m ((c : Thread nD τ).loc main_arg5)) (weight_top m c) (weight_bottom m c)
    (m ((c : Thread nD τ).loc main_arg6)) (bias0 m c) (m ((c : Thread nD τ).loc main_arg8)) (bias1 m c)
    (m ((c : Thread nD τ).loc main_arg10)) (bias2 m c)).trans ?_
  unfold messages allMessages
  rw [entry_v28, entry_arg2, entry_arg7, entry_arg9]

/-! ## The packed array the second region reads, and the result -/

/-- The messages summed per receiving node. -/
abbrev aggregated : FVec Ideal S100000x32 .f32 :=
  Host.scatterAdd scatter_S100000x32_S800000x1_S800000x32_1_0_0_1
    (broadcastInDim S100000x32 ![] bcast_S_S100000x32 (constant (F := Ideal) S_ .f32 0x00000000#32))
    (broadcastInDim S800000x1 ![0] bcast_S800000_S800000x1_0 (m ((c : Thread nD τ).loc main_arg4)))
    (allMessages m c)

theorem mid_arg0 : B2 m c (Proc.devRef .tc main_arg0) = m ((c : Thread nD τ).loc main_arg0) :=
  (B2_other m c main_arg0 (by decide)).trans (StableHlo.after_of_writes_sub hostOps0 _ hostOps0_writes (by decide))
theorem mid_arg4 : B2 m c (Proc.devRef .tc main_arg4) = m ((c : Thread nD τ).loc main_arg4) :=
  (B2_other m c main_arg4 (by decide)).trans (StableHlo.after_of_writes_sub hostOps0 _ hostOps0_writes (by decide))
theorem mid_v34 : B2 m c (Proc.devRef .tc main_v34) = allMessages m c :=
  (B2_arr m c 9).trans (messages_at_exit m c)

/-- Entering the residual region the packed array holds the old node features beside the aggregated messages. -/
theorem entry_v38 : (E3 m c main_v38 : S100000x64.Idx → EReal)
    = concatenate S100000x64 1 [⟨S100000x32, (m ((c : Thread nD τ).loc main_arg0) : S100000x32.Idx → EReal)⟩, ⟨S100000x32, aggregated m c⟩]
        concatenates_S100000x32_S100000x32_S100000x64_d1 := by
  show StableHlo.after hostOps1 (B2 m c) (Proc.devRef .tc main_v38) = _
  after_results
  rw [mid_arg0, mid_arg4, mid_v34]

theorem entry_arg11 : E3 m c main_arg11 = m ((c : Thread nD τ).loc main_arg11) :=
  (StableHlo.after_of_writes_sub hostOps1 _ hostOps1_writes (by decide)).trans
    ((B2_other m c main_arg11 (by decide)).trans (StableHlo.after_of_writes_sub hostOps0 _ hostOps0_writes (by decide)))

theorem packed_lo (n : Fin 100000) (k : Fin 32) :
    (E3 m c main_v38 : S100000x64.Idx → EReal) (ix2 n ⟨k.val, by have := k.isLt; omega⟩)
      = (m ((c : Thread nD τ).loc main_arg0) : S100000x32.Idx → EReal) (ix2 n k) := by
  rw [entry_v38]
  refine (concat_cols_apply (R := 100000) (A := 32) (B := 32) (C := 64) rfl _ _ concatenates_S100000x32_S100000x32_S100000x64_d1 n _).trans ?_
  rw [cat_left (A := 32) (B := 32) (C := 64) rfl _ _ _ (by show k.val < 32; exact k.isLt)]

theorem packed_hi (n : Fin 100000) (k : Fin 32) :
    (E3 m c main_v38 : S100000x64.Idx → EReal) (ix2 n ⟨32 + k.val, by have := k.isLt; omega⟩) = aggregated m c (ix2 n k) := by
  rw [entry_v38]
  refine (concat_cols_apply (R := 100000) (A := 32) (B := 32) (C := 64) rfl _ _ concatenates_S100000x32_S100000x32_S100000x64_d1 n _).trans ?_
  rw [cat_right (A := 32) (B := 32) (C := 64) rfl _ _ _ (by show ¬ 32 + k.val < 32; omega)]
  exact congrArg (aggregated m c) (congrArg (ix2 n) (Fin.ext (by show 32 + k.val - 32 = k.val; omega)))

/-- The result of the kernel program: every node's update, as a function of the arguments. -/
abbrev kernelResult : FVec Ideal S100000x32 .f32 :=
  resArr (N := 100000) (m ((c : Thread nD τ).loc main_arg0)) (aggregated m c) (m ((c : Thread nD τ).loc main_arg11))

/-- After the residual region its output array holds every node's update. -/
theorem result_at_exit : (data1 (E3 m) c).arrAt 2 cfg1.N = kernelResult m c := by
  refine (updates_left (E3 m) c (m ((c : Thread nD τ).loc main_arg0)) (aggregated m c) (packed_lo m c) (packed_hi m c)).trans ?_
  unfold updates kernelResult
  rw [entry_arg11]

end Cert.KernelIdeal.Regions

end
-- ==== Proof.RefValue.lean ====
/-
  The reference program's result, as the same function of the argument arrays.

  The reference joins the four gathered arrays and the edge features into one array of 160 columns, applies the three dense layers with
  their rectifiers, multiplies by the difference of two of the gathered arrays, aggregates per receiving node, and adds the aggregate
  times the square matrix to the old node features. Its three layers on the five-piece join are the network of each row, its
  difference is the difference of the join's last two quarters, and its final sum is the node update: the specification's terms.
-/
import proofs.«166699_j21114059227743_2_alg».proof.Proof.Gen.ReferenceIdeal.Run
import proofs.«166699_j21114059227743_2_alg».proof.Proof.Pieces

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open Idealize.SL.Sem
open Cert.DenseRow Cert.RowBias Cert.EdgeMath

variable (m : (ℓ : Loc nD τ sig) → Buf (Elt Ideal) ℓ) (c : Dev nD)

/-- Rows of a node table picked by a list of node indices, an index below zero counted from the table's end. -/
abbrev gathered (x : (⟨S100000x32, .f32⟩ : BufTy).Contents (Elt Ideal)) (idx : (⟨S800000, .i32⟩ : BufTy).Contents (Elt Ideal)) :
    FVec Ideal S800000x32 .f32 :=
  Host.gather gather_S100000x32_S800000x1_S800000x32_1_0_n_n_0_1_132 x
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 100000#32))) idx))

/-- Four arrays of 32 columns side by side have 128 columns. -/
theorem four_join : Shape.Concatenates [(⟨2, ![800000, 32]⟩ : Shape), ⟨2, ![800000, 32]⟩, ⟨2, ![800000, 32]⟩, ⟨2, ![800000, 32]⟩]
    ⟨2, ![800000, 128]⟩ (1 : Fin 2) := by decide

abbrev gathered4 : FVec Ideal ⟨2, ![800000, 128]⟩ .f32 :=
  join4 (E := 800000)
    (gathered (m ((c : Thread nD τ).loc main_arg1)) (m ((c : Thread nD τ).loc main_arg3)))
    (gathered (m ((c : Thread nD τ).loc main_arg1)) (m ((c : Thread nD τ).loc main_arg4)))
    (gathered (m ((c : Thread nD τ).loc main_arg0)) (m ((c : Thread nD τ).loc main_arg3)))
    (gathered (m ((c : Thread nD τ).loc main_arg0)) (m ((c : Thread nD τ).loc main_arg4)))
    four_join

abbrev allMessages : FVec Ideal S800000x32 .f32 :=
  msgArr (E := 800000) (gathered4 m c) (m ((c : Thread nD τ).loc main_arg2)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

abbrev aggregated : FVec Ideal S100000x32 .f32 :=
  Host.scatterAdd scatter_S100000x32_S800000x1_S800000x32_1_0_0_1
    (broadcastInDim S100000x32 ![] bcast_S_S100000x32 (constant (F := Ideal) S_ .f32 0x00000000#32))
    (broadcastInDim S800000x1 ![0] bcast_S800000_S800000x1_0 (m ((c : Thread nD τ).loc main_arg4)))
    (allMessages m c)

/-- The result of the reference program: every node's update, as a function of the arguments. -/
abbrev refResult : FVec Ideal S100000x32 .f32 :=
  resArr (N := 100000) (m ((c : Thread nD τ).loc main_arg0)) (aggregated m c) (m ((c : Thread nD τ).loc main_arg11))

/-- The program's four contraction records are the plain matrix product's. -/
theorem rec_first : dot_S800000x160_S160x64_S800000x64_1_0_0_1_n_n = DotDims.plain 800000 160 64 := rfl
theorem rec_second : dot_S800000x64_S64x64_S800000x64_1_0_0_1_n_n = DotDims.plain 800000 64 64 := rfl
theorem rec_third : dot_S800000x64_S64x32_S800000x32_1_0_0_1_n_n = DotDims.plain 800000 64 32 := rfl
theorem rec_update : dot_S100000x32_S32x32_S100000x32_1_0_0_1_n_n = DotDims.plain 100000 32 32 := rfl

/-- The reference's array of messages — three layers on the five-piece join, times the difference of two gathered arrays — is the
    specification's. -/
theorem messages_eq :
    mulf (maximumf (addf (Host.dotGeneral (φ₁ := .f32) (φ₂ := .f32) (DotDims.plain 800000 64 32) none
        (maximumf (addf (Host.dotGeneral (φ₁ := .f32) (φ₂ := .f32) (DotDims.plain 800000 64 64) none
            (maximumf (addf (Host.dotGeneral (φ₁ := .f32) (φ₂ := .f32) (DotDims.plain 800000 160 64) none
                (concatenate S800000x160 1
                  [⟨S800000x32, gathered (m ((c : Thread nD τ).loc main_arg1)) (m ((c : Thread nD τ).loc main_arg3))⟩,
                   ⟨S800000x32, gathered (m ((c : Thread nD τ).loc main_arg1)) (m ((c : Thread nD τ).loc main_arg4))⟩,
                   ⟨S800000x32, gathered (m ((c : Thread nD τ).loc main_arg0)) (m ((c : Thread nD τ).loc main_arg3))⟩,
                   ⟨S800000x32, gathered (m ((c : Thread nD τ).loc main_arg0)) (m ((c : Thread nD τ).loc main_arg4))⟩,
                   ⟨S800000x32, m ((c : Thread nD τ).loc main_arg2)⟩]
                  concatenates_S800000x32_S800000x32_S800000x32_S800000x32_S800000x32_S800000x160_d1 : FVec Ideal S800000x160 .f32)
                (m ((c : Thread nD τ).loc main_arg5) : FVec Ideal S160x64 .f32))
                (broadcastInDim S800000x64 ![0, 1] bcast_S1x64_S800000x64_0_1 (broadcastInDim S1x64 ![1] bcast_S64_S1x64_1 (m ((c : Thread nD τ).loc main_arg6) : FVec Ideal S64 .f32))))
              (broadcastInDim S800000x64 ![] bcast_S_S800000x64 (constant (F := Ideal) S_ .f32 0x00000000#32)))
            (m ((c : Thread nD τ).loc main_arg7) : FVec Ideal S64x64 .f32))
            (broadcastInDim S800000x64 ![0, 1] bcast_S1x64_S800000x64_0_1 (broadcastInDim S1x64 ![1] bcast_S64_S1x64_1 (m ((c : Thread nD τ).loc main_arg8) : FVec Ideal S64 .f32))))
          (broadcastInDim S800000x64 ![] bcast_S_S800000x64 (constant (F := Ideal) S_ .f32 0x00000000#32)))
        (m ((c : Thread nD τ).loc main_arg9) : FVec Ideal S64x32 .f32))
        (broadcastInDim S800000x32 ![0, 1] bcast_S1x32_S800000x32_0_1 (broadcastInDim S1x32 ![1] bcast_S32_S1x32_1 (m ((c : Thread nD τ).loc main_arg10) : FVec Ideal S32 .f32))))
      (broadcastInDim S800000x32 ![] bcast_S_S800000x32 (constant (F := Ideal) S_ .f32 0x00000000#32)))
      (subf (gathered (m ((c : Thread nD τ).loc main_arg0)) (m ((c : Thread nD τ).loc main_arg4)))
            (gathered (m ((c : Thread nD τ).loc main_arg0)) (m ((c : Thread nD τ).loc main_arg3))))
      = allMessages m c :=
  hmsg (E := 800000)
    (gathered (m ((c : Thread nD τ).loc main_arg1)) (m ((c : Thread nD τ).loc main_arg3)))
    (gathered (m ((c : Thread nD τ).loc main_arg1)) (m ((c : Thread nD τ).loc main_arg4)))
    (gathered (m ((c : Thread nD τ).loc main_arg0)) (m ((c : Thread nD τ).loc main_arg3)))
    (gathered (m ((c : Thread nD τ).loc main_arg0)) (m ((c : Thread nD τ).loc main_arg4)))
    (m ((c : Thread nD τ).loc main_arg2)) four_join concatenates_S800000x32_S800000x32_S800000x32_S800000x32_S800000x32_S800000x160_d1
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    bcast_S64_S1x64_1 bcast_S1x64_S800000x64_0_1 bcast_S_S800000x64 bcast_S32_S1x32_1 bcast_S1x32_S800000x32_0_1 bcast_S_S800000x32

set_option maxHeartbeats 400000 in
/-- The run's result term is every node's update. -/
theorem result_eq : Cert.ReferenceIdeal.Value.res_main_v50 (F := Ideal) m c = refResult m c := by
  unfold Cert.ReferenceIdeal.Value.res_main_v50
  rw [rec_first, rec_second, rec_third, rec_update]
  rw [messages_eq m c]
  exact hres (N := 100000) _ _ _

end Cert.ReferenceIdeal.RefValue

end
-- ==== Proof.lean ====
/-
  The proof of `Cert.Claim`: the three frames, the (empty) idealization ledger, and the value claim.

  Both programs compute, for every node, its old features plus its aggregated messages times a square matrix, a message being the
  output of a three-layer rectified network on the edge's 160 features times a difference of gathered node features. The kernel
  program splits the first layer's product in two, tiles the edges and the nodes into blocks of rows and packs arrays side by side;
  the reference contracts all 160 features at once on whole arrays. At the ideal instance both results are the same function of
  the arguments: a sum of 160 terms is the sum of its first 128 and its last 32, and every other operation acts on a row by itself.
  The kernel program's frames and its result are read off its run through the two regions; the reference's off its straight-line run.
-/
import proofs.«166699_j21114059227743_2_alg».proof.Defs
import proofs.«166699_j21114059227743_2_alg».proof.Proof.Gen.Kernel
import proofs.«166699_j21114059227743_2_alg».proof.Proof.Gen.KernelIdeal
import proofs.«166699_j21114059227743_2_alg».proof.Proof.Gen.ReferenceIdeal
import proofs.«166699_j21114059227743_2_alg».proof.Proof.Gen.Pre_finite_inputs
import proofs.«166699_j21114059227743_2_alg».proof.Proof.Gen.ReferenceIdeal.Run
import proofs.«166699_j21114059227743_2_alg».proof.Proof.Kernel.Run
import proofs.«166699_j21114059227743_2_alg».proof.Proof.KernelIdeal.Value
import proofs.«166699_j21114059227743_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Regions.frame (F := Bits) m ρ

/-- So does the idealized kernel program. -/
theorem frame_kernel_ideal : Cert.frame_KernelIdeal := fun m ρ _ => Cert.KernelIdeal.Regions.frame (F := Ideal) m ρ

/-- So does the idealized reference: its straight-line run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

set_option maxHeartbeats 400000 in
/-- From memories agreeing on the arguments both idealized programs end with every node's update in the result buffer. -/
theorem algebraic : Cert.algebraic_KernelIdeal_ReferenceIdeal := by
  intro m ρ m' ρ' _ hagree
  refine ⟨fun c => Cert.KernelIdeal.Regions.kernelResult m c, ?_, ?_⟩
  · exact (θ_run Cert.KernelIdeal.defs _ _).mono
      (fun r h c => ⟨(h c).1.trans (Cert.KernelIdeal.Regions.result_at_exit m c), (h c).2⟩)
      (Cert.KernelIdeal.Regions.run_value (F := Ideal) m ρ)
  · refine (θ_run Cert.ReferenceIdeal.defs _ _).mono
      (fun r h c => ⟨(h c).1.trans ((Cert.ReferenceIdeal.RefValue.result_eq m' c).trans ?_), (h c).2⟩)
      (Cert.ReferenceIdeal.Value.run (F := Ideal) m' ρ')
    obtain ⟨a0, a1, a2, a3, a4, a5, a6, a7, a8, a9, a10, a11⟩ := hagree c
    unfold Cert.ReferenceIdeal.RefValue.refResult Cert.ReferenceIdeal.RefValue.aggregated Cert.ReferenceIdeal.RefValue.allMessages
      Cert.ReferenceIdeal.RefValue.gathered4
    rw [a0, a1, a2, a3, a4, a5, a6, a7, a8, a9, a10, a11]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
